-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x512x1024 : S_.BroadcastsInDim S4x512x1024 (![] : Fin 0 → Fin S4x512x1024.rank)
  reducesTo_S4x512x1024_S_d0_1_2 : S4x512x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S1024x96 : S_.BroadcastsInDim S1024x96 (![] : Fin 0 → Fin S1024x96.rank)
  reducesTo_S1024x96_S_d0_1 : S1024x96.ReducesTo [0, 1] S_
  bcast_S_S96 : S_.BroadcastsInDim S96 (![] : Fin 0 → Fin S96.rank)
  reducesTo_S96_S_d0 : S96.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S1024x32 .f32) (main_arg14 : FVec F S32 .f32) (main_v48 : IVec S_ 1) (main_v49 : FVec F S1024x64 .f32) (main_v50 : FVec F S1024x64 .f32) : IVec S_ 1 :=
  let main_v51 : IVec S1024x64 1 := cmpf .olt main_v49 main_v50
  let main_c_19 : IVec S_ 1 := constantI S_ 1 1#1
  let main_v52 : IVec S_ 1 := (fun x v => Host.reduce IntOp.andi x v reducesTo_S1024x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1024x32 .f32 := Host.absf main_arg13
  let main_cst_22 : FVec F S_ .f32 := constant S_ .f32 0x7F800000#32
  let main_v60 : FVec F S1024x32 .f32 := broadcastInDim S1024x32 ![] bcast_S_S1024x32 main_cst_22
  let main_v61 : IVec S1024x32 1 := cmpf .olt main_v59 main_v60
  let main_c_23 : IVec S_ 1 := constantI S_ 1 1#1
  let main_v62 : IVec S_ 1 := (fun x v => Host.reduce IntOp.andi x v reducesTo_S1024x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1024x96 .f32 := Host.absf main_arg9
  let main_cst_14 : FVec F S_ .f32 := constant S_ .f32 0x7F800000#32
  let main_v40 : FVec F S1024x96 .f32 := broadcastInDim S1024x96 ![] bcast_S_S1024x96 main_cst_14
  let main_v41 : IVec S1024x96 1 := cmpf .olt main_v39 main_v40
  let main_c_15 : IVec S_ 1 := constantI S_ 1 1#1
  let main_v42 : IVec S_ 1 := (fun x v => Host.reduce IntOp.andi x v reducesTo_S1024x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S1024x64 .f32 := Host.absf main_arg11
  let main_cst_18 : FVec F S_ .f32 := constant S_ .f32 0x7F800000#32
  let main_v50 : FVec F S1024x64 .f32 := broadcastInDim S1024x64 ![] bcast_S_S1024x64 main_cst_18
  fn_part3 (F := F) main_arg12 main_arg13 main_arg14 main_v48 main_v49 main_v50

def fn_part1 {F : FTy → Type} [FloatOps F] (main_arg5 : FVec F S4x512x1024 .f32) (main_arg6 : FVec F S4x1024 .f32) (main_arg7 : FVec F S1024x128 .f32) (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S4x512x1024 .f32 := Host.absf main_arg5
  let main_cst_6 : FVec F S_ .f32 := constant S_ .f32 0x7F800000#32
  let main_v20 : FVec F S4x512x1024 .f32 := broadcastInDim S4x512x1024 ![] bcast_S_S4x512x1024 main_cst_6
  let main_v21 : IVec S4x512x1024 1 := cmpf .olt main_v19 main_v20
  let main_c_7 : IVec S_ 1 := constantI S_ 1 1#1
  let main_v22 : IVec S_ 1 := (fun x v => Host.reduce IntOp.andi x v reducesTo_S4x512x1024_S_d0_1_2 h_S_) main_v21 main_c_7
  let main_v23 : IVec S_ 1 := andi main_v18 main_v22
  let main_v24 : FVec F S4x1024 .f32 := Host.absf main_arg6
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S1024x128 .f32 := Host.absf main_arg7
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S16384x512 .f32) (main_arg1 : FVec F S16384x512 .f32) (main_arg2 : FVec F S16384x512 .f32) (main_arg3 : FVec F S16384x512 .f32) (main_arg4 : IVec S65536 32) (main_arg5 : FVec F S4x512x1024 .f32) (main_arg6 : FVec F S4x1024 .f32) (main_arg7 : FVec F S1024x128 .f32) (main_arg8 : FVec F S128 .f32) (main_arg9 : FVec F S1024x96 .f32) (main_arg10 : FVec F S96 .f32) (main_arg11 : FVec F S1024x64 .f32) (main_arg12 : FVec F S64 .f32) (main_arg13 : FVec F S1024x32 .f32) (main_arg14 : FVec F S32 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg5 main_arg6 main_arg7 main_arg8 main_arg9 main_arg10 main_arg11 main_arg12 main_arg13 main_arg14 main_v13 main_v16
-- ==== Kernel.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S_ : Shape := ⟨0, ![]⟩
abbrev S1x1024x128 : Shape := ⟨3, ![1, 1024, 128]⟩
abbrev S4x1024x128 : Shape := ⟨3, ![4, 1024, 128]⟩
abbrev S1x128 : Shape := ⟨2, ![1, 128]⟩
abbrev S4x128 : Shape := ⟨2, ![4, 128]⟩
abbrev S4x16384x128 : Shape := ⟨3, ![4, 16384, 128]⟩
abbrev S1024x512 : Shape := ⟨2, ![1024, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x512x128 : Shape := ⟨3, ![1, 512, 128]⟩
abbrev S512x128 : Shape := ⟨2, ![512, 128]⟩

abbrev nBuf : Space → Nat
  | .hbm => 52
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S65536, .i32⟩
  | .hbm, ⟨5, _⟩ => ⟨S4x512x1024, .f32⟩
  | .hbm, ⟨6, _⟩ => ⟨S4x1024, .f32⟩
  | .hbm, ⟨7, _⟩ => ⟨S1024x128, .f32⟩
  | .hbm, ⟨8, _⟩ => ⟨S128, .f32⟩
  | .hbm, ⟨9, _⟩ => ⟨S1024x96, .f32⟩
  | .hbm, ⟨10, _⟩ => ⟨S96, .f32⟩
  | .hbm, ⟨11, _⟩ => ⟨S1024x64, .f32⟩
  | .hbm, ⟨12, _⟩ => ⟨S64, .f32⟩
  | .hbm, ⟨13, _⟩ => ⟨S1024x32, .f32⟩
  | .hbm, ⟨14, _⟩ => ⟨S32, .f32⟩
  | .hbm, ⟨15, _⟩ => ⟨S4x512x1024, .bf16⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1x1024x128, .f32⟩
  | .hbm, ⟨29, _⟩ => ⟨S1x1024x128, .f32⟩
  | .hbm, ⟨30, _⟩ => ⟨S1x1024x128, .f32⟩
  | .hbm, ⟨31, _⟩ => ⟨S1x1024x128, .f32⟩
  | .hbm, ⟨32, _⟩ => ⟨S4x1024x128, .f32⟩
  | .hbm, ⟨33, _⟩ => ⟨S4x1024x128, .bf16⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S_, .i32⟩
  | .hbm, ⟨38, _⟩ => ⟨S_, .f32⟩
  | .hbm, ⟨39, _⟩ => ⟨S128, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S4x128, .f32⟩
  | .hbm, ⟨51, _⟩ => ⟨S4x16384x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S4x512x1024, .bf16⟩
  | .local _ .vmem, ⟨9, _⟩ => ⟨S4x1024, .f32⟩
  | .local _ .vmem, ⟨10, _⟩ => ⟨S4x1024x128, .bf16⟩
  | .local _ .vmem, ⟨11, _⟩ => ⟨S4x128, .f32⟩
  | .local _ .vmem, ⟨12, _⟩ => ⟨S4x1024x128, .f32⟩
  | .local _ .vmem, ⟨13, _⟩ => ⟨S4x1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_c_0 : Ref sig .tc := ⟨.hbm, 19, rfl⟩
abbrev main_call1_v0 : Ref sig .tc := ⟨.hbm, 20, rfl⟩
abbrev main_v2 : Ref sig .tc := ⟨.hbm, 21, rfl⟩
abbrev main_c_1 : Ref sig .tc := ⟨.hbm, 22, rfl⟩
abbrev main_call2_v0 : Ref sig .tc := ⟨.hbm, 23, rfl⟩
abbrev main_v3 : Ref sig .tc := ⟨.hbm, 24, rfl⟩
abbrev main_c_2 : Ref sig .tc := ⟨.hbm, 25, rfl⟩
abbrev main_call3_v0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_3 : Ref sig .tc := ⟨.hbm, 34, rfl⟩
abbrev main_call4_v0 : Ref sig .tc := ⟨.hbm, 35, rfl⟩
abbrev main_v11 : Ref sig .tc := ⟨.hbm, 36, rfl⟩
abbrev main_c_4 : Ref sig .tc := ⟨.hbm, 37, rfl⟩
abbrev main_call5_v0 : Ref sig .tc := ⟨.hbm, 38, rfl⟩
abbrev main_v12 : Ref sig .tc := ⟨.hbm, 39, rfl⟩
abbrev main_c_5 : Ref sig .tc := ⟨.hbm, 40, rfl⟩
abbrev main_call6_v0 : Ref sig .tc := ⟨.hbm, 41, rfl⟩
abbrev main_v13 : Ref sig .tc := ⟨.hbm, 42, rfl⟩
abbrev main_c_6 : Ref sig .tc := ⟨.hbm, 43, rfl⟩
abbrev main_call7_v0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  pads_S1024x128_S1024x128_000_000 : S1024x128.Pads (![0, 0] : Fin 2 → Nat) ![0, 0] ![0, 0] S1024x128
  h_S_ : 0 < S_.numel
  pads_S1024x96_S1024x128_000_0320 : S1024x96.Pads (![0, 0] : Fin 2 → Nat) ![0, 32] ![0, 0] S1024x128
  pads_S1024x64_S1024x128_000_0640 : S1024x64.Pads (![0, 0] : Fin 2 → Nat) ![0, 64] ![0, 0] S1024x128
  pads_S1024x32_S1024x128_000_0960 : S1024x32.Pads (![0, 0] : Fin 2 → Nat) ![0, 96] ![0, 0] S1024x128
  bcast_S1024x128_S1x1024x128_1_2 : S1024x128.BroadcastsInDim S1x1024x128 (![1, 2] : Fin 2 → Fin S1x1024x128.rank)
  concatenates_S1x1024x128_S1x1024x128_S1x1024x128_S1x1024x128_S4x1024x128_d0 : Shape.Concatenates [S1x1024x128, S1x1024x128, S1x1024x128, S1x1024x128] S4x1024x128 0
  pads_S128_S128_000 : S128.Pads (![0] : Fin 1 → Nat) ![0] ![0] S128
  pads_S96_S128_0320 : S96.Pads (![0] : Fin 1 → Nat) ![32] ![0] S128
  pads_S64_S128_0640 : S64.Pads (![0] : Fin 1 → Nat) ![64] ![0] S128
  pads_S32_S128_0960 : S32.Pads (![0] : Fin 1 → Nat) ![96] ![0] S128
  bcast_S128_S1x128_1 : S128.BroadcastsInDim S1x128 (![1] : Fin 1 → Fin S1x128.rank)
  concatenates_S1x128_S1x128_S1x128_S1x128_S4x128_d0 : Shape.Concatenates [S1x128, S1x128, S1x128, S1x128] S4x128 0
  inb_S1024x512_S1024x512_0_0 : ∀ a, (![0, 0] : Fin 2 → Nat) a + S1024x512.size a ≤ S1024x512.size a
  h_S1024x512 : 0 < S1024x512.numel
  inb_S4x512x1024_S1x512x512_0_0_0 : ∀ a, (![0, 0, 0] : Fin 3 → Nat) a + S1x512x512.size a ≤ S4x512x1024.size a
  h_S1x512x512 : 0 < S1x512x512.numel
  shapeCasts_S1x512x512_S512x512 : S1x512x512.ShapeCasts S512x512
  inb_S4x1024_S1x512_0_0 : ∀ a, (![0, 0] : Fin 2 → Nat) a + S1x512.size a ≤ S4x1024.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S4x1024x128_S1x512x128_0_0_0 : ∀ a, (![0, 0, 0] : Fin 3 → Nat) a + S1x512x128.size a ≤ S4x1024x128.size a
  h_S1x512x128 : 0 < S1x512x128.numel
  shapeCasts_S1x512x128_S512x128 : S1x512x128.ShapeCasts S512x128
  inb_S4x512x1024_S1x512x512_0_0_512 : ∀ a, (![0, 0, 512] : Fin 3 → Nat) a + S1x512x512.size a ≤ S4x512x1024.size a
  inb_S4x1024_S1x512_0_512 : ∀ a, (![0, 512] : Fin 2 → Nat) a + S1x512.size a ≤ S4x1024.size a
  inb_S4x1024x128_S1x512x128_0_512_0 : ∀ a, (![0, 512, 0] : Fin 3 → Nat) a + S1x512x128.size a ≤ S4x1024x128.size a
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S4x1024x128_S1x1024x128_0_0_0 : ∀ a, (![0, 0, 0] : Fin 3 → Nat) a + S1x1024x128.size a ≤ S4x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S4x512x1024_S1x512x512_1_0_0 : ∀ a, (![1, 0, 0] : Fin 3 → Nat) a + S1x512x512.size a ≤ S4x512x1024.size a
  inb_S4x1024_S1x512_1_0 : ∀ a, (![1, 0] : Fin 2 → Nat) a + S1x512.size a ≤ S4x1024.size a
  inb_S4x1024x128_S1x512x128_1_0_0 : ∀ a, (![1, 0, 0] : Fin 3 → Nat) a + S1x512x128.size a ≤ S4x1024x128.size a
  inb_S4x512x1024_S1x512x512_1_0_512 : ∀ a, (![1, 0, 512] : Fin 3 → Nat) a + S1x512x512.size a ≤ S4x512x1024.size a
  inb_S4x1024_S1x512_1_512 : ∀ a, (![1, 512] : Fin 2 → Nat) a + S1x512.size a ≤ S4x1024.size a
  inb_S4x1024x128_S1x512x128_1_512_0 : ∀ a, (![1, 512, 0] : Fin 3 → Nat) a + S1x512x128.size a ≤ S4x1024x128.size a
  inb_S4x128_S1x128_1_0 : ∀ a, (![1, 0] : Fin 2 → Nat) a + S1x128.size a ≤ S4x128.size a
  inb_S4x1024x128_S1x1024x128_1_0_0 : ∀ a, (![1, 0, 0] : Fin 3 → Nat) a + S1x1024x128.size a ≤ S4x1024x128.size a
  inb_S4x512x1024_S1x512x512_2_0_0 : ∀ a, (![2, 0, 0] : Fin 3 → Nat) a + S1x512x512.size a ≤ S4x512x1024.size a
  inb_S4x1024_S1x512_2_0 : ∀ a, (![2, 0] : Fin 2 → Nat) a + S1x512.size a ≤ S4x1024.size a
  inb_S4x1024x128_S1x512x128_2_0_0 : ∀ a, (![2, 0, 0] : Fin 3 → Nat) a + S1x512x128.size a ≤ S4x1024x128.size a
  inb_S4x512x1024_S1x512x512_2_0_512 : ∀ a, (![2, 0, 512] : Fin 3 → Nat) a + S1x512x512.size a ≤ S4x512x1024.size a
  inb_S4x1024_S1x512_2_512 : ∀ a, (![2, 512] : Fin 2 → Nat) a + S1x512.size a ≤ S4x1024.size a
  inb_S4x1024x128_S1x512x128_2_512_0 : ∀ a, (![2, 512, 0] : Fin 3 → Nat) a + S1x512x128.size a ≤ S4x1024x128.size a
  inb_S4x128_S1x128_2_0 : ∀ a, (![2, 0] : Fin 2 → Nat) a + S1x128.size a ≤ S4x128.size a
  inb_S4x1024x128_S1x1024x128_2_0_0 : ∀ a, (![2, 0, 0] : Fin 3 → Nat) a + S1x1024x128.size a ≤ S4x1024x128.size a
  inb_S4x512x1024_S1x512x512_3_0_0 : ∀ a, (![3, 0, 0] : Fin 3 → Nat) a + S1x512x512.size a ≤ S4x512x1024.size a
  inb_S4x1024_S1x512_3_0 : ∀ a, (![3, 0] : Fin 2 → Nat) a + S1x512.size a ≤ S4x1024.size a
  inb_S4x1024x128_S1x512x128_3_0_0 : ∀ a, (![3, 0, 0] : Fin 3 → Nat) a + S1x512x128.size a ≤ S4x1024x128.size a
  inb_S4x512x1024_S1x512x512_3_0_512 : ∀ a, (![3, 0, 512] : Fin 3 → Nat) a + S1x512x512.size a ≤ S4x512x1024.size a
  inb_S4x1024_S1x512_3_512 : ∀ a, (![3, 512] : Fin 2 → Nat) a + S1x512.size a ≤ S4x1024.size a
  inb_S4x1024x128_S1x512x128_3_512_0 : ∀ a, (![3, 512, 0] : Fin 3 → Nat) a + S1x512x128.size a ≤ S4x1024x128.size a
  inb_S4x128_S1x128_3_0 : ∀ a, (![3, 0] : Fin 2 → Nat) a + S1x128.size a ≤ S4x128.size a
  inb_S4x1024x128_S1x1024x128_3_0_0 : ∀ a, (![3, 0, 0] : Fin 3 → Nat) a + S1x1024x128.size a ≤ S4x1024x128.size a
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x512x1024.size a
  hwx0_4 : ∀ i : grid0.Coords, EltTy.bits .bf16 = 32 ∨ (Rect.block (s := S4x512x1024) S4x512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024x128.size a ≤ S4x1024x128.size a
  hwx0_6 : ∀ i : grid0.Coords, EltTy.bits .bf16 = 32 ∨ (Rect.block (s := S4x1024x128) S4x1024x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128.size a ≤ S4x128.size a
  hwx0_7 : ∀ i : grid0.Coords, EltTy.bits .f32 = 32 ∨ (Rect.block (s := S4x128) S4x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x1024x128.size a ≤ S4x16384x128.size a
  hwx0_8 : ∀ i : grid0.Coords, EltTy.bits .f32 = 32 ∨ (Rect.block (s := S4x16384x128) S4x1024x128.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S4x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S4x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S65536 : Shape := ⟨1, ![65536]⟩
abbrev S4x512x1024 : Shape := ⟨3, ![4, 512, 1024]⟩
abbrev S4x1024 : Shape := ⟨2, ![4, 1024]⟩
abbrev S1024x128 : Shape := ⟨2, ![1024, 128]⟩
abbrev S128 : Shape := ⟨1, ![128]⟩
abbrev S1024x96 : Shape := ⟨2, ![1024, 96]⟩
abbrev S96 : Shape := ⟨1, ![96]⟩
abbrev S1024x64 : Shape := ⟨2, ![1024, 64]⟩
abbrev S64 : Shape := ⟨1, ![64]⟩
abbrev S1024x32 : Shape := ⟨2, ![1024, 32]⟩
abbrev S32 : Shape := ⟨1, ![32]⟩
abbrev S1x16384x512 : Shape := ⟨3, ![1, 16384, 512]⟩
abbrev S4x16384x512 : Shape := ⟨3, ![4, 16384, 512]⟩
abbrev S4x16384x1024 : Shape := ⟨3, ![4, 16384, 1024]⟩
abbrev S4x1x1024 : Shape := ⟨3, ![4, 1, 1024]⟩
abbrev S_ : Shape := ⟨0, ![]⟩
abbrev S1x16384x1024 : Shape := ⟨3, ![1, 16384, 1024]⟩
abbrev S16384x1024 : Shape := ⟨2, ![16384, 1024]⟩
abbrev S16384x128 : Shape := ⟨2, ![16384, 128]⟩
abbrev S1x128 : Shape := ⟨2, ![1, 128]⟩
abbrev S16384x96 : Shape := ⟨2, ![16384, 96]⟩
abbrev S1x96 : Shape := ⟨2, ![1, 96]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x16384x128 : Shape := ⟨3, ![1, 16384, 128]⟩
abbrev S4x16384x128 : Shape := ⟨3, ![4, 16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S65536, .i32⟩
  | .hbm, ⟨5, _⟩ => ⟨S4x512x1024, .f32⟩
  | .hbm, ⟨6, _⟩ => ⟨S4x1024, .f32⟩
  | .hbm, ⟨7, _⟩ => ⟨S1024x128, .f32⟩
  | .hbm, ⟨8, _⟩ => ⟨S128, .f32⟩
  | .hbm, ⟨9, _⟩ => ⟨S1024x96, .f32⟩
  | .hbm, ⟨10, _⟩ => ⟨S96, .f32⟩
  | .hbm, ⟨11, _⟩ => ⟨S1024x64, .f32⟩
  | .hbm, ⟨12, _⟩ => ⟨S64, .f32⟩
  | .hbm, ⟨13, _⟩ => ⟨S1024x32, .f32⟩
  | .hbm, ⟨14, _⟩ => ⟨S32, .f32⟩
  | .hbm, ⟨15, _⟩ => ⟨S1x16384x512, .f32⟩
  | .hbm, ⟨16, _⟩ => ⟨S1x16384x512, .f32⟩
  | .hbm, ⟨17, _⟩ => ⟨S1x16384x512, .f32⟩
  | .hbm, ⟨18, _⟩ => ⟨S1x16384x512, .f32⟩
  | .hbm, ⟨19, _⟩ => ⟨S4x16384x512, .f32⟩
  | .hbm, ⟨20, _⟩ => ⟨S4x16384x1024, .f32⟩
  | .hbm, ⟨21, _⟩ => ⟨S4x1x1024, .f32⟩
  | .hbm, ⟨22, _⟩ => ⟨S4x16384x1024, .f32⟩
  | .hbm, ⟨23, _⟩ => ⟨S4x16384x1024, .f32⟩
  | .hbm, ⟨24, _⟩ => ⟨S_, .f32⟩
  | .hbm, ⟨25, _⟩ => ⟨S4x16384x1024, .f32⟩
  | .hbm, ⟨26, _⟩ => ⟨S4x16384x1024, .f32⟩
  | .hbm, ⟨27, _⟩ => ⟨S1x16384x1024, .f32⟩
  | .hbm, ⟨28, _⟩ => ⟨S16384x1024, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S_, .f32⟩
  | .hbm, ⟨35, _⟩ => ⟨S16384x128, .f32⟩
  | .hbm, ⟨36, _⟩ => ⟨S1x16384x1024, .f32⟩
  | .hbm, ⟨37, _⟩ => ⟨S16384x1024, .f32⟩
  | .hbm, ⟨38, _⟩ => ⟨S16384x96, .f32⟩
  | .hbm, ⟨39, _⟩ => ⟨S1x96, .f32⟩
  | .hbm, ⟨40, _⟩ => ⟨S16384x96, .f32⟩
  | .hbm, ⟨41, _⟩ => ⟨S16384x96, .f32⟩
  | .hbm, ⟨42, _⟩ => ⟨S_, .i32⟩
  | .hbm, ⟨43, _⟩ => ⟨S_, .f32⟩
  | .hbm, ⟨44, _⟩ => ⟨S16384x128, .f32⟩
  | .hbm, ⟨45, _⟩ => ⟨S1x16384x1024, .f32⟩
  | .hbm, ⟨46, _⟩ => ⟨S16384x1024, .f32⟩
  | .hbm, ⟨47, _⟩ => ⟨S16384x64, .f32⟩
  | .hbm, ⟨48, _⟩ => ⟨S1x64, .f32⟩
  | .hbm, ⟨49, _⟩ => ⟨S16384x64, .f32⟩
  | .hbm, ⟨50, _⟩ => ⟨S16384x64, .f32⟩
  | .hbm, ⟨51, _⟩ => ⟨S_, .i32⟩
  | .hbm, ⟨52, _⟩ => ⟨S_, .f32⟩
  | .hbm, ⟨53, _⟩ => ⟨S16384x128, .f32⟩
  | .hbm, ⟨54, _⟩ => ⟨S1x16384x1024, .f32⟩
  | .hbm, ⟨55, _⟩ => ⟨S16384x1024, .f32⟩
  | .hbm, ⟨56, _⟩ => ⟨S16384x32, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S_, .i32⟩
  | .hbm, ⟨61, _⟩ => ⟨S_, .f32⟩
  | .hbm, ⟨62, _⟩ => ⟨S16384x128, .f32⟩
  | .hbm, ⟨63, _⟩ => ⟨S1x16384x128, .f32⟩
  | .hbm, ⟨64, _⟩ => ⟨S1x16384x128, .f32⟩
  | .hbm, ⟨65, _⟩ => ⟨S1x16384x128, .f32⟩
  | .hbm, ⟨66, _⟩ => ⟨S1x16384x128, .f32⟩
  | .hbm, ⟨67, _⟩ => ⟨S4x16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call1_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_0 : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_1 : Ref sig .tc := ⟨.hbm, 51, rfl⟩
abbrev main_call3_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_2 : Ref sig .tc := ⟨.hbm, 60, rfl⟩
abbrev main_call4_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S16384x512_S1x16384x512_1_2 : S16384x512.BroadcastsInDim S1x16384x512 (![1, 2] : Fin 2 → Fin S1x16384x512.rank)
  concatenates_S1x16384x512_S1x16384x512_S1x16384x512_S1x16384x512_S4x16384x512_d0 : Shape.Concatenates [S1x16384x512, S1x16384x512, S1x16384x512, S1x16384x512] S4x16384x512 0
  bcast_S4x1024_S4x1x1024_0_2 : S4x1024.BroadcastsInDim S4x1x1024 (![0, 2] : Fin 2 → Fin S4x1x1024.rank)
  bcast_S4x1x1024_S4x16384x1024_0_1_2 : S4x1x1024.BroadcastsInDim S4x16384x1024 (![0, 1, 2] : Fin 3 → Fin S4x16384x1024.rank)
  bcast_S_S4x16384x1024 : S_.BroadcastsInDim S4x16384x1024 (![] : Fin 0 → Fin S4x16384x1024.rank)
  slices_S4x16384x1024_S1x16384x1024_0_0_0 : S4x16384x1024.Slices ![0, 0, 0] S1x16384x1024
  shapeCasts_S1x16384x1024_S16384x1024 : S1x16384x1024.ShapeCasts S16384x1024
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  pads_S16384x128_S16384x128_000_000 : S16384x128.Pads (![0, 0] : Fin 2 → Nat) ![0, 0] ![0, 0] S16384x128
  h_S_ : 0 < S_.numel
  slices_S4x16384x1024_S1x16384x1024_1_0_0 : S4x16384x1024.Slices ![1, 0, 0] S1x16384x1024
  bcast_S96_S1x96_1 : S96.BroadcastsInDim S1x96 (![1] : Fin 1 → Fin S1x96.rank)
  bcast_S1x96_S16384x96_0_1 : S1x96.BroadcastsInDim S16384x96 (![0, 1] : Fin 2 → Fin S16384x96.rank)
  pads_S16384x96_S16384x128_000_0320 : S16384x96.Pads (![0, 0] : Fin 2 → Nat) ![0, 32] ![0, 0] S16384x128
  slices_S4x16384x1024_S1x16384x1024_2_0_0 : S4x16384x1024.Slices ![2, 0, 0] S1x16384x1024
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  pads_S16384x64_S16384x128_000_0640 : S16384x64.Pads (![0, 0] : Fin 2 → Nat) ![0, 64] ![0, 0] S16384x128
  slices_S4x16384x1024_S1x16384x1024_3_0_0 : S4x16384x1024.Slices ![3, 0, 0] S1x16384x1024
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  pads_S16384x32_S16384x128_000_0960 : S16384x32.Pads (![0, 0] : Fin 2 → Nat) ![0, 96] ![0, 0] S16384x128
  bcast_S16384x128_S1x16384x128_1_2 : S16384x128.BroadcastsInDim S1x16384x128 (![1, 2] : Fin 2 → Fin S1x16384x128.rank)
  concatenates_S1x16384x128_S1x16384x128_S1x16384x128_S1x16384x128_S4x16384x128_d0 : Shape.Concatenates [S1x16384x128, S1x16384x128, S1x16384x128, S1x16384x128] S4x16384x128 0
  dot_S4x16384x512_S4x512x1024_S4x16384x1024_2_1_1_2_0_0_wf : DotDims.WF S4x16384x512 S4x512x1024 S4x16384x1024 [2] [1] [1] [2] [0] [0]
  dot_S16384x1024_S1024x128_S16384x128_1_0_0_1_n_n_wf : DotDims.WF S16384x1024 S1024x128 S16384x128 [1] [0] [0] [1] [] []
  dot_S16384x1024_S1024x96_S16384x96_1_0_0_1_n_n_wf : DotDims.WF S16384x1024 S1024x96 S16384x96 [1] [0] [0] [1] [] []
  dot_S16384x1024_S1024x64_S16384x64_1_0_0_1_n_n_wf : DotDims.WF S16384x1024 S1024x64 S16384x64 [1] [0] [0] [1] [] []
  dot_S16384x1024_S1024x32_S16384x32_1_0_0_1_n_n_wf : DotDims.WF S16384x1024 S1024x32 S16384x32 [1] [0] [0] [1] [] []

variable [Facts₀]

def dot_S4x16384x512_S4x512x1024_S4x16384x1024_2_1_1_2_0_0 : DotDims S4x16384x512 S4x512x1024 S4x16384x1024 where
  lhsContracting := [2]
  rhsContracting := [1]
  lhsNonContracting := [1]
  rhsNonContracting := [2]
  lhsBatch := [0]
  rhsBatch := [0]
  wf := dot_S4x16384x512_S4x512x1024_S4x16384x1024_2_1_1_2_0_0_wf
def dot_S16384x1024_S1024x128_S16384x128_1_0_0_1_n_n : DotDims S16384x1024 S1024x128 S16384x128 where
  lhsContracting := [1]
  rhsContracting := [0]
  lhsNonContracting := [0]
  rhsNonContracting := [1]
  lhsBatch := []
  rhsBatch := []
  wf := dot_S16384x1024_S1024x128_S16384x128_1_0_0_1_n_n_wf
def dot_S16384x1024_S1024x96_S16384x96_1_0_0_1_n_n : DotDims S16384x1024 S1024x96 S16384x96 where
  lhsContracting := [1]
  rhsContracting := [0]
  lhsNonContracting := [0]
  rhsNonContracting := [1]
  lhsBatch := []
  rhsBatch := []
  wf := dot_S16384x1024_S1024x96_S16384x96_1_0_0_1_n_n_wf
def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x1024_S1024x32_S16384x32_1_0_0_1_n_n : DotDims S16384x1024 S1024x32 S16384x32 where
  lhsContracting := [1]
  rhsContracting := [0]
  lhsNonContracting := [0]
  rhsNonContracting := [1]
  lhsBatch := []
  rhsBatch := []
  wf := dot_S16384x1024_S1024x32_S16384x32_1_0_0_1_n_n_wf

class Facts : Prop extends Facts₀ where

variable [Facts]
-- ==== Proof.BitsBody.lean ====
/-
  The kernel body at one grid point, read as a function of what its staging buffers hold: the eight input
  buffers are only read, and the output buffer, whatever it held, ends as the four row-slabs the body stores,
  slab t being type t's head: relu(x_t · W1_t + b1_t) · W2_t + b2_t with the hidden axis taken in two halves
  of 512. Nothing here depends on the float instance.
-/
import proofs.«127226_j13099650253498_2_alg».proof.Proof.Gen.Kernel.Launch
import proofs.«127226_j13099650253498_2_alg».proof.Proof.Gen.Kernel.Skeleton
import proofs.«127226_j13099650253498_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The rectangles the body reads and writes

Type `t` (0 … 3) reads its own 1024 × 512 block of features whole; of the stacked first-layer weights the two
512-column halves of slab `t`; of the first-layer bias the two 512-entry halves of row `t`; of the stacked,
zero-padded second-layer weights the two 512-row halves of slab `t`; of the padded second-layer bias row `t`;
and writes slab `t` of the 4 × 1024 × 128 output block. -/

abbrev featR : Rect S1024x512 := Rect.unit (s := S1024x512) ![0, 0] S1024x512.size inb_S1024x512_S1024x512_0_0
abbrev w1R0a : Rect S4x512x1024 := Rect.unit (s := S4x512x1024) ![0, 0, 0] S1x512x512.size inb_S4x512x1024_S1x512x512_0_0_0
abbrev w1R0b : Rect S4x512x1024 := Rect.unit (s := S4x512x1024) ![0, 0, 512] S1x512x512.size inb_S4x512x1024_S1x512x512_0_0_512
abbrev b1R0a : Rect S4x1024 := Rect.unit (s := S4x1024) ![0, 0] S1x512.size inb_S4x1024_S1x512_0_0
abbrev b1R0b : Rect S4x1024 := Rect.unit (s := S4x1024) ![0, 512] S1x512.size inb_S4x1024_S1x512_0_512
abbrev w2R0a : Rect S4x1024x128 := Rect.unit (s := S4x1024x128) ![0, 0, 0] S1x512x128.size inb_S4x1024x128_S1x512x128_0_0_0
abbrev w2R0b : Rect S4x1024x128 := Rect.unit (s := S4x1024x128) ![0, 512, 0] S1x512x128.size inb_S4x1024x128_S1x512x128_0_512_0
abbrev b2R0 : Rect S4x128 := Rect.unit (s := S4x128) ![0, 0] S1x128.size inb_S4x128_S1x128_0_0
abbrev outR0 : Rect S4x1024x128 := Rect.unit (s := S4x1024x128) ![0, 0, 0] S1x1024x128.size inb_S4x1024x128_S1x1024x128_0_0_0
abbrev w1R1a : Rect S4x512x1024 := Rect.unit (s := S4x512x1024) ![1, 0, 0] S1x512x512.size inb_S4x512x1024_S1x512x512_1_0_0
abbrev w1R1b : Rect S4x512x1024 := Rect.unit (s := S4x512x1024) ![1, 0, 512] S1x512x512.size inb_S4x512x1024_S1x512x512_1_0_512
abbrev b1R1a : Rect S4x1024 := Rect.unit (s := S4x1024) ![1, 0] S1x512.size inb_S4x1024_S1x512_1_0
abbrev b1R1b : Rect S4x1024 := Rect.unit (s := S4x1024) ![1, 512] S1x512.size inb_S4x1024_S1x512_1_512
abbrev w2R1a : Rect S4x1024x128 := Rect.unit (s := S4x1024x128) ![1, 0, 0] S1x512x128.size inb_S4x1024x128_S1x512x128_1_0_0
abbrev w2R1b : Rect S4x1024x128 := Rect.unit (s := S4x1024x128) ![1, 512, 0] S1x512x128.size inb_S4x1024x128_S1x512x128_1_512_0
abbrev b2R1 : Rect S4x128 := Rect.unit (s := S4x128) ![1, 0] S1x128.size inb_S4x128_S1x128_1_0
abbrev outR1 : Rect S4x1024x128 := Rect.unit (s := S4x1024x128) ![1, 0, 0] S1x1024x128.size inb_S4x1024x128_S1x1024x128_1_0_0
abbrev w1R2a : Rect S4x512x1024 := Rect.unit (s := S4x512x1024) ![2, 0, 0] S1x512x512.size inb_S4x512x1024_S1x512x512_2_0_0
abbrev w1R2b : Rect S4x512x1024 := Rect.unit (s := S4x512x1024) ![2, 0, 512] S1x512x512.size inb_S4x512x1024_S1x512x512_2_0_512
abbrev b1R2a : Rect S4x1024 := Rect.unit (s := S4x1024) ![2, 0] S1x512.size inb_S4x1024_S1x512_2_0
abbrev b1R2b : Rect S4x1024 := Rect.unit (s := S4x1024) ![2, 512] S1x512.size inb_S4x1024_S1x512_2_512
abbrev w2R2a : Rect S4x1024x128 := Rect.unit (s := S4x1024x128) ![2, 0, 0] S1x512x128.size inb_S4x1024x128_S1x512x128_2_0_0
abbrev w2R2b : Rect S4x1024x128 := Rect.unit (s := S4x1024x128) ![2, 512, 0] S1x512x128.size inb_S4x1024x128_S1x512x128_2_512_0
abbrev b2R2 : Rect S4x128 := Rect.unit (s := S4x128) ![2, 0] S1x128.size inb_S4x128_S1x128_2_0
abbrev outR2 : Rect S4x1024x128 := Rect.unit (s := S4x1024x128) ![2, 0, 0] S1x1024x128.size inb_S4x1024x128_S1x1024x128_2_0_0
abbrev w1R3a : Rect S4x512x1024 := Rect.unit (s := S4x512x1024) ![3, 0, 0] S1x512x512.size inb_S4x512x1024_S1x512x512_3_0_0
abbrev w1R3b : Rect S4x512x1024 := Rect.unit (s := S4x512x1024) ![3, 0, 512] S1x512x512.size inb_S4x512x1024_S1x512x512_3_0_512
abbrev b1R3a : Rect S4x1024 := Rect.unit (s := S4x1024) ![3, 0] S1x512.size inb_S4x1024_S1x512_3_0
abbrev b1R3b : Rect S4x1024 := Rect.unit (s := S4x1024) ![3, 512] S1x512.size inb_S4x1024_S1x512_3_512
abbrev w2R3a : Rect S4x1024x128 := Rect.unit (s := S4x1024x128) ![3, 0, 0] S1x512x128.size inb_S4x1024x128_S1x512x128_3_0_0
abbrev w2R3b : Rect S4x1024x128 := Rect.unit (s := S4x1024x128) ![3, 512, 0] S1x512x128.size inb_S4x1024x128_S1x512x128_3_512_0
abbrev b2R3 : Rect S4x128 := Rect.unit (s := S4x128) ![3, 0] S1x128.size inb_S4x128_S1x128_3_0
abbrev outR3 : Rect S4x1024x128 := Rect.unit (s := S4x1024x128) ![3, 0, 0] S1x1024x128.size inb_S4x1024x128_S1x1024x128_3_0_0

/-! ## What each type's slab of the output block holds after the body

Each is the generated payloads composed as the body composes them: the two halves of the hidden layer
(features × a 512-column half of the first weights, plus the bias half, clamped below at zero), each
multiplied into its 512-row half of the second weights, the two products added from zero, plus the bias row. -/

def slab0 (x0 : Vec F S1024x512 .f32) (w1 : Vec F S4x512x1024 .bf16) (b1 : Vec F S4x1024 .f32) (w2 : Vec F S4x1024x128 .bf16) (b2 : Vec F S4x128 .f32) : Vec F S1x1024x128 .f32 :=
  k0_pay3 (k0_pay2 (View.ld x0 featR) (View.ld w1 w1R0a) (View.ld b1 b1R0a) (View.ld w2 w2R0a) (View.ld w1 w1R0b) (View.ld b1 b1R0b) (View.ld w2 w2R0b)) (View.ld b2 b2R0)

def slab1 (x1 : Vec F S1024x512 .f32) (w1 : Vec F S4x512x1024 .bf16) (b1 : Vec F S4x1024 .f32) (w2 : Vec F S4x1024x128 .bf16) (b2 : Vec F S4x128 .f32) : Vec F S1x1024x128 .f32 :=
  k0_pay7 (k0_pay5 (View.ld x1 featR) (View.ld w1 w1R1a) (View.ld b1 b1R1a) (View.ld w2 w2R1a)) (k0_pay6 (View.ld x1 featR) (View.ld w1 w1R1b) (View.ld b1 b1R1b)) (Scalar.ofBits .f32 0x00000000#32) (View.ld w2 w2R1b) (View.ld b2 b2R1)

def slab2 (x2 : Vec F S1024x512 .f32) (w1 : Vec F S4x512x1024 .bf16) (b1 : Vec F S4x1024 .f32) (w2 : Vec F S4x1024x128 .bf16) (b2 : Vec F S4x128 .f32) : Vec F S1x1024x128 .f32 :=
  k0_pay10 (k0_pay8 (View.ld x2 featR)) (k0_pay9 (View.ld x2 featR) (View.ld w1 w1R2a) (View.ld b1 b1R2a) (View.ld w2 w2R2a)) (View.ld w1 w1R2b) (View.ld b1 b1R2b) (View.ld w2 w2R2b) (View.ld b2 b2R2)

def slab3 (x3 : Vec F S1024x512 .f32) (w1 : Vec F S4x512x1024 .bf16) (b1 : Vec F S4x1024 .f32) (w2 : Vec F S4x1024x128 .bf16) (b2 : Vec F S4x128 .f32) : Vec F S1x1024x128 .f32 :=
  k0_pay1 (k0_pay11 (View.ld x3 featR)) (k0_pay12 (F := F)) (k0_pay13 (View.ld x3 featR) (View.ld w1 w1R3a) (View.ld b1 b1R3a)) (View.ld w2 w2R3a) (View.ld w1 w1R3b) (View.ld b1 b1R3b) (View.ld w2 w2R3b) (View.ld b2 b2R3)

/-- The output block after the body: its four stores as pieces, the last store first. -/
def outBlock (x0 x1 x2 x3 : Vec F S1024x512 .f32) (w1 : Vec F S4x512x1024 .bf16) (b1 : Vec F S4x1024 .f32) (w2 : Vec F S4x1024x128 .bf16) (b2 : Vec F S4x128 .f32) : Vec F S4x1024x128 .f32 :=
  View.canon [⟨outR3, slab3 x3 w1 b1 w2 b2⟩, ⟨outR2, slab2 x2 w1 b1 w2 b2⟩, ⟨outR1, slab1 x1 w1 b1 w2 b2⟩, ⟨outR0, slab0 x0 w1 b1 w2 b2⟩]

/-- The four slabs tile the block, so every index of it lies in one of them. -/
theorem slabs_cover (p3 p2 p1 p0 : Vec F S1x1024x128 .f32) (y : S4x1024x128.Idx) :
    ∃ pc ∈ ([⟨outR3, p3⟩, ⟨outR2, p2⟩, ⟨outR1, p1⟩, ⟨outR0, p0⟩] : List (View.Piece (Elt F) S4x1024x128 .f32)), y ∈ pc.1.set :=
  View.cover_of_tiled [⟨outR3, p3⟩, ⟨outR2, p2⟩, ⟨outR1, p1⟩, ⟨outR0, p0⟩] S1x1024x128.size (by rfl) y

/-! ## The body's triple -/

set_option maxHeartbeats 4000000 in
/-- The body on whole staging buffers, the eight inputs' at read contents and the output's at anything, runs to
    its end holding the inputs' as they were and the output's at `outBlock` of the inputs'. -/
theorem body_run (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S4x512x1024 .bf16) (harg5 : arg5.IsWhole) (arg6 : Memref sig .tc .vmem S4x1024 .f32) (harg6 : arg6.IsWhole) (arg7 : Memref sig .tc .vmem S4x1024x128 .bf16) (harg7 : arg7.IsWhole) (arg8 : Memref sig .tc .vmem S4x128 .f32) (harg8 : arg8.IsWhole) (arg9 : Memref sig .tc .vmem S4x1024x128 .f32) (harg9 : arg9.IsWhole)
    (x0 x1 x2 x3 : Vec F S1024x512 .f32) (w1 : Vec F S4x512x1024 .bf16) (b1 : Vec F S4x1024 .f32) (w2 : Vec F S4x1024x128 .bf16) (b2 : Vec F S4x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w1 ∗ owns (c : Thread nD τ) arg6 fullShare b1 ∗ owns (c : Thread nD τ) arg7 fullShare w2 ∗ owns (c : Thread nD τ) arg8 fullShare b2 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare (outBlock x0 x1 x2 x3 w1 b1 w2 b2)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (slabs_cover _ _ _ _)

end Cert.Kernel.Hand

end
-- ==== Proof.BitsEntry.lean ====
/-
  @main up to its one region. Before the region @main runs seventeen stretches of host operations: it rounds the
  stacked first-layer weights to bf16, pads each type's second-layer weight matrix and bias with zero columns up to
  128, stacks the four padded matrices (and the four padded biases) along a new leading axis, and rounds the stacked
  matrices to bf16. `V` is what each TensorCore buffer holds when the region is entered: the fold of all those
  operations over the launch memory. None of them writes an argument array.
-/
import proofs.«127226_j13099650253498_2_alg».proof.Proof.Gen.Kernel.Launch
import proofs.«127226_j13099650253498_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after every host operation of @main. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is those stretches, one after the other, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

end Cert.Kernel.Hand

end
-- ==== Proof.BitsFrame.lean ====
/-
  The frame of the program: it runs to its end, faults nowhere, and leaves its argument arrays as launched; and
  after the run each array a window stages holds what the library computes from what the body leaves at each of
  the sixteen grid points. Every input window's staging buffer holds, at each point, that window's block of its
  array (the four feature arrays move one block of 1024 rows per point; the four weight and bias arrays are one
  block, fetched once); the output window's buffer is left at the body's four slabs and written back at every point.
-/
import proofs.«127226_j13099650253498_2_alg».proof.Proof.BitsBody
import proofs.«127226_j13099650253498_2_alg».proof.Proof.BitsEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input's buffer at its block
    and the output's at the four slabs computed from the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) :
    (dats m 0 c).after 8 t = outBlock (iblk m c 0 t) (iblk m c 1 t) (iblk m c 2 t) (iblk m c 3 t) (iblk m c 4 t) (iblk m c 5 t) (iblk m c 6 t) (iblk m c 7 t) := by dsimp only [dats]

/-- Input window 0's current staging buffer holds its block at every point, fetched there or not (unfetched, its
    block index has not moved and the body left the block in place). -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
/-- Input window 1's current staging buffer holds its block at every point, fetched there or not (unfetched, its
    block index has not moved and the body left the block in place). -/
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
/-- Input window 2's current staging buffer holds its block at every point, fetched there or not (unfetched, its
    block index has not moved and the body left the block in place). -/
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
/-- Input window 3's current staging buffer holds its block at every point, fetched there or not (unfetched, its
    block index has not moved and the body left the block in place). -/
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
/-- Input window 4's current staging buffer holds its block at every point, fetched there or not (unfetched, its
    block index has not moved and the body left the block in place). -/
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
/-- Input window 5's current staging buffer holds its block at every point, fetched there or not (unfetched, its
    block index has not moved and the body left the block in place). -/
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)
/-- Input window 6's current staging buffer holds its block at every point, fetched there or not (unfetched, its
    block index has not moved and the body left the block in place). -/
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_in6]; unfold Dat.blockOf iblk; rw [A_eq]; try rfl) t d).trans
    (by unfold Dat.fetched Dat.blockOf iblk; rw [A_eq]; try rfl)
/-- Input window 7's current staging buffer holds its block at every point, fetched there or not (unfetched, its
    block index has not moved and the body left the block in place). -/
theorem before_in7 (c : Dev nD) (t : Fin cfg0.N) (d) : (dats m 0 c).before 7 t d = iblk m c 7 t :=
  ((dats m 0 c).before_in_eq_fetched 7 rfl (fun _ => rfl) (fun _ _ _ => rfl)
    (fun t => by rw [after_in7]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the library computes from the proof data and every other unscoped buffer what the
    region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched: the five a window stages (the four feature arrays and the first-layer bias)
    are inputs of the pipeline, which never writes an input's array; the other ten no window touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).1 3).trans ((((dats m 0 c).arrAt_in 3 rfl _).trans ((A_eq m c 3).trans (V_main_arg3 m c)))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans ((((dats m 0 c).arrAt_in 5 rfl _).trans ((A_eq m c 5).trans (V_main_arg6 m c)))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.Kernel.Hand

end
-- ==== Proof.IdealBody.lean ====
/-
  The kernel body at one grid point, read as a function of what its staging buffers hold: the eight input
  buffers are only read, and the output buffer, whatever it held, ends as the four row-slabs the body stores,
  slab t being type t's head: relu(x_t · W1_t + b1_t) · W2_t + b2_t with the hidden axis taken in two halves
  of 512. Nothing here depends on the float instance.
-/
import proofs.«127226_j13099650253498_2_alg».proof.Proof.Gen.KernelIdeal.Launch
import proofs.«127226_j13099650253498_2_alg».proof.Proof.Gen.KernelIdeal.Skeleton
import proofs.«127226_j13099650253498_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The rectangles the body reads and writes

Type `t` (0 … 3) reads its own 1024 × 512 block of features whole; of the stacked first-layer weights the two
512-column halves of slab `t`; of the first-layer bias the two 512-entry halves of row `t`; of the stacked,
zero-padded second-layer weights the two 512-row halves of slab `t`; of the padded second-layer bias row `t`;
and writes slab `t` of the 4 × 1024 × 128 output block. -/

abbrev featR : Rect S1024x512 := Rect.unit (s := S1024x512) ![0, 0] S1024x512.size inb_S1024x512_S1024x512_0_0
abbrev w1R0a : Rect S4x512x1024 := Rect.unit (s := S4x512x1024) ![0, 0, 0] S1x512x512.size inb_S4x512x1024_S1x512x512_0_0_0
abbrev w1R0b : Rect S4x512x1024 := Rect.unit (s := S4x512x1024) ![0, 0, 512] S1x512x512.size inb_S4x512x1024_S1x512x512_0_0_512
abbrev b1R0a : Rect S4x1024 := Rect.unit (s := S4x1024) ![0, 0] S1x512.size inb_S4x1024_S1x512_0_0
abbrev b1R0b : Rect S4x1024 := Rect.unit (s := S4x1024) ![0, 512] S1x512.size inb_S4x1024_S1x512_0_512
abbrev w2R0a : Rect S4x1024x128 := Rect.unit (s := S4x1024x128) ![0, 0, 0] S1x512x128.size inb_S4x1024x128_S1x512x128_0_0_0
abbrev w2R0b : Rect S4x1024x128 := Rect.unit (s := S4x1024x128) ![0, 512, 0] S1x512x128.size inb_S4x1024x128_S1x512x128_0_512_0
abbrev b2R0 : Rect S4x128 := Rect.unit (s := S4x128) ![0, 0] S1x128.size inb_S4x128_S1x128_0_0
abbrev outR0 : Rect S4x1024x128 := Rect.unit (s := S4x1024x128) ![0, 0, 0] S1x1024x128.size inb_S4x1024x128_S1x1024x128_0_0_0
abbrev w1R1a : Rect S4x512x1024 := Rect.unit (s := S4x512x1024) ![1, 0, 0] S1x512x512.size inb_S4x512x1024_S1x512x512_1_0_0
abbrev w1R1b : Rect S4x512x1024 := Rect.unit (s := S4x512x1024) ![1, 0, 512] S1x512x512.size inb_S4x512x1024_S1x512x512_1_0_512
abbrev b1R1a : Rect S4x1024 := Rect.unit (s := S4x1024) ![1, 0] S1x512.size inb_S4x1024_S1x512_1_0
abbrev b1R1b : Rect S4x1024 := Rect.unit (s := S4x1024) ![1, 512] S1x512.size inb_S4x1024_S1x512_1_512
abbrev w2R1a : Rect S4x1024x128 := Rect.unit (s := S4x1024x128) ![1, 0, 0] S1x512x128.size inb_S4x1024x128_S1x512x128_1_0_0
abbrev w2R1b : Rect S4x1024x128 := Rect.unit (s := S4x1024x128) ![1, 512, 0] S1x512x128.size inb_S4x1024x128_S1x512x128_1_512_0
abbrev b2R1 : Rect S4x128 := Rect.unit (s := S4x128) ![1, 0] S1x128.size inb_S4x128_S1x128_1_0
abbrev outR1 : Rect S4x1024x128 := Rect.unit (s := S4x1024x128) ![1, 0, 0] S1x1024x128.size inb_S4x1024x128_S1x1024x128_1_0_0
abbrev w1R2a : Rect S4x512x1024 := Rect.unit (s := S4x512x1024) ![2, 0, 0] S1x512x512.size inb_S4x512x1024_S1x512x512_2_0_0
abbrev w1R2b : Rect S4x512x1024 := Rect.unit (s := S4x512x1024) ![2, 0, 512] S1x512x512.size inb_S4x512x1024_S1x512x512_2_0_512
abbrev b1R2a : Rect S4x1024 := Rect.unit (s := S4x1024) ![2, 0] S1x512.size inb_S4x1024_S1x512_2_0
abbrev b1R2b : Rect S4x1024 := Rect.unit (s := S4x1024) ![2, 512] S1x512.size inb_S4x1024_S1x512_2_512
abbrev w2R2a : Rect S4x1024x128 := Rect.unit (s := S4x1024x128) ![2, 0, 0] S1x512x128.size inb_S4x1024x128_S1x512x128_2_0_0
abbrev w2R2b : Rect S4x1024x128 := Rect.unit (s := S4x1024x128) ![2, 512, 0] S1x512x128.size inb_S4x1024x128_S1x512x128_2_512_0
abbrev b2R2 : Rect S4x128 := Rect.unit (s := S4x128) ![2, 0] S1x128.size inb_S4x128_S1x128_2_0
abbrev outR2 : Rect S4x1024x128 := Rect.unit (s := S4x1024x128) ![2, 0, 0] S1x1024x128.size inb_S4x1024x128_S1x1024x128_2_0_0
abbrev w1R3a : Rect S4x512x1024 := Rect.unit (s := S4x512x1024) ![3, 0, 0] S1x512x512.size inb_S4x512x1024_S1x512x512_3_0_0
abbrev w1R3b : Rect S4x512x1024 := Rect.unit (s := S4x512x1024) ![3, 0, 512] S1x512x512.size inb_S4x512x1024_S1x512x512_3_0_512
abbrev b1R3a : Rect S4x1024 := Rect.unit (s := S4x1024) ![3, 0] S1x512.size inb_S4x1024_S1x512_3_0
abbrev b1R3b : Rect S4x1024 := Rect.unit (s := S4x1024) ![3, 512] S1x512.size inb_S4x1024_S1x512_3_512
abbrev w2R3a : Rect S4x1024x128 := Rect.unit (s := S4x1024x128) ![3, 0, 0] S1x512x128.size inb_S4x1024x128_S1x512x128_3_0_0
abbrev w2R3b : Rect S4x1024x128 := Rect.unit (s := S4x1024x128) ![3, 512, 0] S1x512x128.size inb_S4x1024x128_S1x512x128_3_512_0
abbrev b2R3 : Rect S4x128 := Rect.unit (s := S4x128) ![3, 0] S1x128.size inb_S4x128_S1x128_3_0
abbrev outR3 : Rect S4x1024x128 := Rect.unit (s := S4x1024x128) ![3, 0, 0] S1x1024x128.size inb_S4x1024x128_S1x1024x128_3_0_0

/-! ## What each type's slab of the output block holds after the body

Each is the generated payloads composed as the body composes them: the two halves of the hidden layer
(features × a 512-column half of the first weights, plus the bias half, clamped below at zero), each
multiplied into its 512-row half of the second weights, the two products added from zero, plus the bias row. -/

def slab0 (x0 : Vec F S1024x512 .f32) (w1 : Vec F S4x512x1024 .bf16) (b1 : Vec F S4x1024 .f32) (w2 : Vec F S4x1024x128 .bf16) (b2 : Vec F S4x128 .f32) : Vec F S1x1024x128 .f32 :=
  k0_pay3 (k0_pay2 (View.ld x0 featR) (View.ld w1 w1R0a) (View.ld b1 b1R0a) (View.ld w2 w2R0a) (View.ld w1 w1R0b) (View.ld b1 b1R0b) (View.ld w2 w2R0b)) (View.ld b2 b2R0)

def slab1 (x1 : Vec F S1024x512 .f32) (w1 : Vec F S4x512x1024 .bf16) (b1 : Vec F S4x1024 .f32) (w2 : Vec F S4x1024x128 .bf16) (b2 : Vec F S4x128 .f32) : Vec F S1x1024x128 .f32 :=
  k0_pay7 (k0_pay5 (View.ld x1 featR) (View.ld w1 w1R1a) (View.ld b1 b1R1a) (View.ld w2 w2R1a)) (k0_pay6 (View.ld x1 featR) (View.ld w1 w1R1b) (View.ld b1 b1R1b)) (Scalar.ofBits .f32 0x00000000#32) (View.ld w2 w2R1b) (View.ld b2 b2R1)

def slab2 (x2 : Vec F S1024x512 .f32) (w1 : Vec F S4x512x1024 .bf16) (b1 : Vec F S4x1024 .f32) (w2 : Vec F S4x1024x128 .bf16) (b2 : Vec F S4x128 .f32) : Vec F S1x1024x128 .f32 :=
  k0_pay10 (k0_pay8 (View.ld x2 featR)) (k0_pay9 (View.ld x2 featR) (View.ld w1 w1R2a) (View.ld b1 b1R2a) (View.ld w2 w2R2a)) (View.ld w1 w1R2b) (View.ld b1 b1R2b) (View.ld w2 w2R2b) (View.ld b2 b2R2)

def slab3 (x3 : Vec F S1024x512 .f32) (w1 : Vec F S4x512x1024 .bf16) (b1 : Vec F S4x1024 .f32) (w2 : Vec F S4x1024x128 .bf16) (b2 : Vec F S4x128 .f32) : Vec F S1x1024x128 .f32 :=
  k0_pay1 (k0_pay11 (View.ld x3 featR)) (k0_pay12 (F := F)) (k0_pay13 (View.ld x3 featR) (View.ld w1 w1R3a) (View.ld b1 b1R3a)) (View.ld w2 w2R3a) (View.ld w1 w1R3b) (View.ld b1 b1R3b) (View.ld w2 w2R3b) (View.ld b2 b2R3)

/-- The output block after the body: its four stores as pieces, the last store first. -/
def outBlock (x0 x1 x2 x3 : Vec F S1024x512 .f32) (w1 : Vec F S4x512x1024 .bf16) (b1 : Vec F S4x1024 .f32) (w2 : Vec F S4x1024x128 .bf16) (b2 : Vec F S4x128 .f32) : Vec F S4x1024x128 .f32 :=
  View.canon [⟨outR3, slab3 x3 w1 b1 w2 b2⟩, ⟨outR2, slab2 x2 w1 b1 w2 b2⟩, ⟨outR1, slab1 x1 w1 b1 w2 b2⟩, ⟨outR0, slab0 x0 w1 b1 w2 b2⟩]

/-- The four slabs tile the block, so every index of it lies in one of them. -/
theorem slabs_cover (p3 p2 p1 p0 : Vec F S1x1024x128 .f32) (y : S4x1024x128.Idx) :
    ∃ pc ∈ ([⟨outR3, p3⟩, ⟨outR2, p2⟩, ⟨outR1, p1⟩, ⟨outR0, p0⟩] : List (View.Piece (Elt F) S4x1024x128 .f32)), y ∈ pc.1.set :=
  View.cover_of_tiled [⟨outR3, p3⟩, ⟨outR2, p2⟩, ⟨outR1, p1⟩, ⟨outR0, p0⟩] S1x1024x128.size (by rfl) y

/-! ## The body's triple -/

set_option maxHeartbeats 4000000 in
/-- The body on whole staging buffers, the eight inputs' at read contents and the output's at anything, runs to
    its end holding the inputs' as they were and the output's at `outBlock` of the inputs'. -/
theorem body_run (c : Dev nD) (E : Set ℕ) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S4x512x1024 .bf16) (harg5 : arg5.IsWhole) (arg6 : Memref sig .tc .vmem S4x1024 .f32) (harg6 : arg6.IsWhole) (arg7 : Memref sig .tc .vmem S4x1024x128 .bf16) (harg7 : arg7.IsWhole) (arg8 : Memref sig .tc .vmem S4x128 .f32) (harg8 : arg8.IsWhole) (arg9 : Memref sig .tc .vmem S4x1024x128 .f32) (harg9 : arg9.IsWhole)
    (x0 x1 x2 x3 : Vec F S1024x512 .f32) (w1 : Vec F S4x512x1024 .bf16) (b1 : Vec F S4x1024 .f32) (w2 : Vec F S4x1024x128 .bf16) (b2 : Vec F S4x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w1 ∗ owns (c : Thread nD τ) arg6 fullShare b1 ∗ owns (c : Thread nD τ) arg7 fullShare w2 ∗ owns (c : Thread nD τ) arg8 fullShare b2 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare w1 ∗ owns (c : Thread nD τ) arg6 fullShare b1 ∗ owns (c : Thread nD τ) arg7 fullShare w2 ∗ owns (c : Thread nD τ) arg8 fullShare b2 ∗ owns (c : Thread nD τ) arg9 fullShare (outBlock x0 x1 x2 x3 w1 b1 w2 b2)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (slabs_cover _ _ _ _)

end Cert.KernelIdeal.Hand

end
-- ==== Proof.IdealEntry.lean ====
/-
  @main up to its one region. Before the region @main runs seventeen stretches of host operations: it rounds the
  stacked first-layer weights to bf16, pads each type's second-layer weight matrix and bias with zero columns up to
  128, stacks the four padded matrices (and the four padded biases) along a new leading axis, and rounds the stacked
  matrices to bf16. `V` is what each TensorCore buffer holds when the region is entered: the fold of all those
  operations over the launch memory. None of them writes an argument array.
-/
import proofs.«127226_j13099650253498_2_alg».proof.Proof.Gen.KernelIdeal.Launch
import proofs.«127226_j13099650253498_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after every host operation of @main. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is those stretches, one after the other, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, StableHlo.TRef.unary, StableHlo.TRef.binary, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

end Cert.KernelIdeal.Hand

end
-- ==== Proof.IdealFrame.lean ====
/-
  The frame of the program: it runs to its end, faults nowhere, and leaves its argument arrays as launched; and
  after the run each array a window stages holds what the library computes from what the body leaves at each of
  the sixteen grid points. Every input window's staging buffer holds, at each point, that window's block of its
  array (the four feature arrays move one block of 1024 rows per point; the four weight and bias arrays are one
  block, fetched once); the output window's buffer is left at the body's four slabs and written back at every point.
-/
import proofs.«127226_j13099650253498_2_alg».proof.Proof.IdealBody
import proofs.«127226_j13099650253498_2_alg».proof.Proof.IdealEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input's buffer at its block
    and the output's at the four slabs computed from the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) :
    (dats m 0 c).after 8 t = outBlock (iblk m c 0 t) (iblk m c 1 t) (iblk m c 2 t) (iblk m c 3 t) (iblk m c 4 t) (iblk m c 5 t) (iblk m c 6 t) (iblk m c 7 t) := by dsimp only [dats]

/-- Input window 0's current staging buffer holds its block at every point, fetched there or not (unfetched, its
    block index has not moved and the body left the block in place). -/
theorem before_in0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
/-- Input window 1's current staging buffer holds its block at every point, fetched there or not (unfetched, its
    block index has not moved and the body left the block in place). -/
theorem before_in1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
/-- Input window 2's current staging buffer holds its block at every point, fetched there or not (unfetched, its
    block index has not moved and the body left the block in place). -/
theorem before_in2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
/-- Input window 3's current staging buffer holds its block at every point, fetched there or not (unfetched, its
    block index has not moved and the body left the block in place). -/
theorem before_in3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)
/-- Input window 4's current staging buffer holds its block at every point, fetched there or not (unfetched, its
    block index has not moved and the body left the block in place). -/
theorem before_in4 (c : Dev nD) (t : Fin cfg0.N) (d) : (dats m 0 c).before 4 t d = iblk m c 4 t :=
  ((dats m 0 c).before_in_eq_fetched 4 rfl (fun _ => rfl) (fun _ _ _ => rfl)
    (fun t => by rw [after_in4]; unfold Dat.blockOf iblk; rw [A_eq]; try rfl) t d).trans
    (by unfold Dat.fetched Dat.blockOf iblk; rw [A_eq]; try rfl)
/-- Input window 5's current staging buffer holds its block at every point, fetched there or not (unfetched, its
    block index has not moved and the body left the block in place). -/
theorem before_in5 (c : Dev nD) (t : Fin cfg0.N) (d) : (dats m 0 c).before 5 t d = iblk m c 5 t :=
  ((dats m 0 c).before_in_eq_fetched 5 rfl (fun _ => rfl) (fun _ _ _ => rfl)
    (fun t => by rw [after_in5]; unfold Dat.blockOf iblk; rw [A_eq]; try rfl) t d).trans
    (by unfold Dat.fetched Dat.blockOf iblk; rw [A_eq]; try rfl)
/-- Input window 6's current staging buffer holds its block at every point, fetched there or not (unfetched, its
    block index has not moved and the body left the block in place). -/
theorem before_in6 (c : Dev nD) (t : Fin cfg0.N) (d) : (dats m 0 c).before 6 t d = iblk m c 6 t :=
  ((dats m 0 c).before_in_eq_fetched 6 rfl (fun _ => rfl) (fun _ _ _ => rfl)
    (fun t => by rw [after_in6]; unfold Dat.blockOf iblk; rw [A_eq]; try rfl) t d).trans
    (by unfold Dat.fetched Dat.blockOf iblk; rw [A_eq]; try rfl)
/-- Input window 7's current staging buffer holds its block at every point, fetched there or not (unfetched, its
    block index has not moved and the body left the block in place). -/
theorem before_in7 (c : Dev nD) (t : Fin cfg0.N) (d) : (dats m 0 c).before 7 t d = iblk m c 7 t :=
  ((dats m 0 c).before_in_eq_fetched 7 rfl (fun _ => rfl) (fun _ _ _ => rfl)
    (fun t => by rw [after_in7]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the library computes from the proof data and every other unscoped buffer what the
    region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end as launched: the five a window stages (the four feature arrays and the first-layer bias)
    are inputs of the pipeline, which never writes an input's array; the other ten no window touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).1 3).trans ((((dats m 0 c).arrAt_in 3 rfl _).trans ((A_eq m c 3).trans (V_main_arg3 m c)))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans ((((dats m 0 c).arrAt_in 5 rfl _).trans ((A_eq m c 5).trans (V_main_arg6 m c)))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Hand

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.IdealSlab.lean ====
/-
  One type's slab of the output block, read at an entry at the extended reals.

  Whatever the float instance, each of the body's four stores writes the same vector-level function of its eight
  loads (features; two column halves of the first weights; two halves of the first bias; two row halves of the second
  weights; the second bias row). At the extended reals, where a change of format is the identity, entry (0, r, c) of
  that function is

      ((0 + Σ_k max(Σ_i x(r,i)·w1a(i,k) + b1a(k), 0)·w2a(k,c)) + Σ_k max(Σ_i x(r,i)·w1b(i,k) + b1b(k), 0)·w2b(k,c)) + b2(c),

  both inner sums over 512 indices: the two matrix products into zero are plain sums, the bias row is spread over
  the 1024 rows, and the unit axes come and go without moving anything.
-/
import proofs.«127226_j13099650253498_2_alg».proof.Proof.IdealBody
import proofs.«127226_j13099650253498_2_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

section AnyInstance

variable {F : FTy → Type} [FloatOps F]

/-- Half of the hidden layer: features times a 512-column half of the first weights, plus that half of the bias,
    clamped below at zero (the roundings to bf16 stand where the body has them). -/
def hiddenHalf (x : Vec F S1024x512 .f32) (w1 : Vec F S1x512x512 .bf16) (b1 : Vec F S1x512 .f32) : FVec F S1024x512 .bf16 :=
  truncf .bf16 (maximumf (addf (matmul dot_S1024x512_S512x512_S1024x512_1_0_0_1_n_n none (truncf .bf16 x bitsLt_bf16_f32)
        (shapeCast S512x512 w1 shapeCasts_S1x512x512_S512x512) (constant S1024x512 .f32 0x00000000#32))
      (broadcastTo S1024x512 (shapeCast S1x512 (shapeCast S512 b1 shapeCasts_S1x512_S512) shapeCasts_S512_S1x512) broadcasts_S1x512_S1024x512))
    (broadcast S1024x512 (Scalar.ofBits .f32 0x00000000#32))) bitsLt_bf16_f32

/-- That half multiplied into its 512-row half of the second weights. -/
def halfProduct (h : FVec F S1024x512 .bf16) (w2 : Vec F S1x512x128 .bf16) : FVec F S1024x128 .f32 :=
  matmul dot_S1024x512_S512x128_S1024x128_1_0_0_1_n_n none h (shapeCast S512x128 w2 shapeCasts_S1x512x128_S512x128) (constant S1024x128 .f32 0x00000000#32)

/-- One head: the two half products added from zero, plus the bias row spread over the rows, as a 1 × 1024 × 128 slab. -/
def headVec (x : Vec F S1024x512 .f32) (w1a : Vec F S1x512x512 .bf16) (b1a : Vec F S1x512 .f32) (w2a : Vec F S1x512x128 .bf16)
    (w1b : Vec F S1x512x512 .bf16) (b1b : Vec F S1x512 .f32) (w2b : Vec F S1x512x128 .bf16) (b2 : Vec F S1x128 .f32) : FVec F S1x1024x128 .f32 :=
  shapeCast S1x1024x128 (addf (addf (addf (broadcast S1024x128 (Scalar.ofBits .f32 0x00000000#32)) (halfProduct (hiddenHalf x w1a b1a) w2a))
        (halfProduct (hiddenHalf x w1b b1b) w2b))
      (broadcastTo S1024x128 (shapeCast S1x128 (shapeCast S128 b2 shapeCasts_S1x128_S128) shapeCasts_S128_S1x128) broadcasts_S1x128_S1024x128))
    shapeCasts_S1024x128_S1x1024x128

/-- Each of the four stores writes that function of its own eight loads: the generated payloads, composed as the body
    composes them, unfold to it. -/
theorem slab0_eq (x0 : Vec F S1024x512 .f32) (w1 : Vec F S4x512x1024 .bf16) (b1 : Vec F S4x1024 .f32) (w2 : Vec F S4x1024x128 .bf16) (b2 : Vec F S4x128 .f32) :
    slab0 x0 w1 b1 w2 b2 = headVec (View.ld x0 featR) (View.ld w1 w1R0a) (View.ld b1 b1R0a) (View.ld w2 w2R0a) (View.ld w1 w1R0b) (View.ld b1 b1R0b) (View.ld w2 w2R0b) (View.ld b2 b2R0) := by
  unfold slab0 headVec halfProduct hiddenHalf k0_pay3 k0_pay2; rfl
theorem slab1_eq (x1 : Vec F S1024x512 .f32) (w1 : Vec F S4x512x1024 .bf16) (b1 : Vec F S4x1024 .f32) (w2 : Vec F S4x1024x128 .bf16) (b2 : Vec F S4x128 .f32) :
    slab1 x1 w1 b1 w2 b2 = headVec (View.ld x1 featR) (View.ld w1 w1R1a) (View.ld b1 b1R1a) (View.ld w2 w2R1a) (View.ld w1 w1R1b) (View.ld b1 b1R1b) (View.ld w2 w2R1b) (View.ld b2 b2R1) := by
  unfold slab1 headVec halfProduct hiddenHalf k0_pay7 k0_pay5 k0_pay6 k0_pay4; rfl
theorem slab2_eq (x2 : Vec F S1024x512 .f32) (w1 : Vec F S4x512x1024 .bf16) (b1 : Vec F S4x1024 .f32) (w2 : Vec F S4x1024x128 .bf16) (b2 : Vec F S4x128 .f32) :
    slab2 x2 w1 b1 w2 b2 = headVec (View.ld x2 featR) (View.ld w1 w1R2a) (View.ld b1 b1R2a) (View.ld w2 w2R2a) (View.ld w1 w1R2b) (View.ld b1 b1R2b) (View.ld w2 w2R2b) (View.ld b2 b2R2) := by
  unfold slab2 headVec halfProduct hiddenHalf k0_pay10 k0_pay8 k0_pay9; rfl
theorem slab3_eq (x3 : Vec F S1024x512 .f32) (w1 : Vec F S4x512x1024 .bf16) (b1 : Vec F S4x1024 .f32) (w2 : Vec F S4x1024x128 .bf16) (b2 : Vec F S4x128 .f32) :
    slab3 x3 w1 b1 w2 b2 = headVec (View.ld x3 featR) (View.ld w1 w1R3a) (View.ld b1 b1R3a) (View.ld w2 w2R3a) (View.ld w1 w1R3b) (View.ld b1 b1R3b) (View.ld w2 w2R3b) (View.ld b2 b2R3) := by
  unfold slab3 headVec halfProduct hiddenHalf k0_pay1 k0_pay11 k0_pay12 k0_pay13; rfl

end AnyInstance

/-! ## At the extended reals -/

/-- Half of the hidden layer at (r, k): the row's contraction with column k of the weights, plus the bias entry,
    clamped below at zero. -/
theorem hiddenHalf_apply (x : Vec Ideal S1024x512 .f32) (w1 : Vec Ideal S1x512x512 .bf16) (b1 : Vec Ideal S1x512 .f32) (r : Fin 1024) (k : Fin 512) :
    hiddenHalf (F := Ideal) x w1 b1 (ix2 r k)
      = max ((∑ i : Fin 512, x (ix2 r i) * w1 (ix3 (0 : Fin 1) i k)) + b1 (ix2 (0 : Fin 1) k)) 0 := by
  unfold hiddenHalf
  rw [truncf_apply, maximumf_apply, addf_apply, broadcast_apply]
  have hz : (Scalar.ofBits (F := Ideal) .f32 0x00000000#32 : EReal) = 0 := Ideal.ofBits_zero_f32
  have hb : broadcastTo S1024x512 (shapeCast S1x512 (shapeCast S512 b1 shapeCasts_S1x512_S512) shapeCasts_S512_S1x512) broadcasts_S1x512_S1024x512 (ix2 r k)
      = b1 (ix2 (0 : Fin 1) k) := by
    rw [broadcastTo_1b_ab_apply, shapeCast_a_1a_apply, shapeCast_1a_a_apply]
  have hm : matmul dot_S1024x512_S512x512_S1024x512_1_0_0_1_n_n none (truncf .bf16 x bitsLt_bf16_f32 : FVec Ideal S1024x512 .bf16)
        (shapeCast S512x512 w1 shapeCasts_S1x512x512_S512x512 : FVec Ideal S512x512 .bf16) (constant (F := Ideal) S1024x512 .f32 0x00000000#32) (ix2 r k)
      = ∑ i : Fin 512, x (ix2 r i) * w1 (ix3 (0 : Fin 1) i k) := by
    refine (Cert.Sage.matmul_plain_zero_apply (M := 1024) (K := 512) (N := 512) none _ _ r k).trans ?_
    refine Finset.sum_congr rfl fun i _ => ?_
    rw [truncf_apply, shapeCast_1ab_ab_apply]
  rw [hm, hb, hz]

/-- A half product at (r, c): the hidden row's contraction with column c of the second weights' half. -/
theorem halfProduct_apply (h : FVec Ideal S1024x512 .bf16) (w2 : Vec Ideal S1x512x128 .bf16) (r : Fin 1024) (c : Fin 128) :
    halfProduct (F := Ideal) h w2 (ix2 r c) = ∑ k : Fin 512, h (ix2 r k) * w2 (ix3 (0 : Fin 1) k c) := by
  unfold halfProduct
  refine (Cert.Sage.matmul_plain_zero_apply (M := 1024) (K := 512) (N := 128) none _ _ r c).trans ?_
  refine Finset.sum_congr rfl fun k _ => ?_
  rw [shapeCast_1ab_ab_apply]

/-- One head at entry (0, r, c). -/
theorem headVec_apply (x : Vec Ideal S1024x512 .f32) (w1a : Vec Ideal S1x512x512 .bf16) (b1a : Vec Ideal S1x512 .f32) (w2a : Vec Ideal S1x512x128 .bf16)
    (w1b : Vec Ideal S1x512x512 .bf16) (b1b : Vec Ideal S1x512 .f32) (w2b : Vec Ideal S1x512x128 .bf16) (b2 : Vec Ideal S1x128 .f32)
    (r : Fin 1024) (c : Fin 128) :
    headVec (F := Ideal) x w1a b1a w2a w1b b1b w2b b2 (ix3 (0 : Fin 1) r c)
      = ((0 + ∑ k : Fin 512, max ((∑ i : Fin 512, x (ix2 r i) * w1a (ix3 (0 : Fin 1) i k)) + b1a (ix2 (0 : Fin 1) k)) 0 * w2a (ix3 (0 : Fin 1) k c))
          + ∑ k : Fin 512, max ((∑ i : Fin 512, x (ix2 r i) * w1b (ix3 (0 : Fin 1) i k)) + b1b (ix2 (0 : Fin 1) k)) 0 * w2b (ix3 (0 : Fin 1) k c))
        + b2 (ix2 (0 : Fin 1) c) := by
  unfold headVec
  rw [shapeCast_ab_1ab_apply, addf_apply, addf_apply, addf_apply, broadcast_apply, halfProduct_apply, halfProduct_apply]
  have hz : (Scalar.ofBits (F := Ideal) .f32 0x00000000#32 : EReal) = 0 := Ideal.ofBits_zero_f32
  have hb : broadcastTo S1024x128 (shapeCast S1x128 (shapeCast S128 b2 shapeCasts_S1x128_S128) shapeCasts_S128_S1x128) broadcasts_S1x128_S1024x128 (ix2 r c)
      = b2 (ix2 (0 : Fin 1) c) := by
    rw [broadcastTo_1b_ab_apply, shapeCast_a_1a_apply, shapeCast_1a_a_apply]
  rw [hb, hz]
  simp only [hiddenHalf_apply]

end Cert.KernelIdeal.Hand

end
-- ==== Proof.Heads.lean ====
/-
  One entry of one head of the network, over the extended reals, and the two arrangements of it.

  For a feature row x (512 entries), first-layer weights w1 (512 × 1024) and bias b1 (1024), hidden unit k is
  max(Σ_i x_i · w1_{i,k} + b1_k, 0). Against a second-layer weight column w2 (1024 entries) and a bias entry b2 the
  head's entry is Σ_k hidden_k · w2_k + b2. Taken in two halves of 512 hidden units whose sums are added from zero,
  it is the same number: a sum over 1024 indices is the sum of its two halves, and zero added on the left changes
  nothing. No finiteness is used: only that addition of extended reals is associative with neutral zero.

  A head whose own width o is below 128 is padded: beyond column o its weight column and bias entry are zero, and
  then every product is zero, their sum is zero, and the entry is zero — which is what padding the RESULT with zeros
  gives.
-/
import Idealize.ShloMosaic.PureOps.Ideal
import Idealize.ShloMosaic.Lib.ValueIdx
import Mathlib.Algebra.BigOperators.Fin

noncomputable section

namespace Cert.Heads

/-- Hidden unit `k` of a feature row. -/
def hid (x : Fin 512 → EReal) (w1 : Fin 512 → Fin 1024 → EReal) (b1 : Fin 1024 → EReal) (k : Fin 1024) : EReal :=
  max ((∑ i : Fin 512, x i * w1 i k) + b1 k) 0

/-- Hidden index `k` of the lower half, and of the upper half. -/
def lo (k : Fin 512) : Fin 1024 := ⟨k.val, by omega⟩
def hi (k : Fin 512) : Fin 1024 := ⟨512 + k.val, by omega⟩

/-- The entry with the hidden axis in two halves, added from zero (the kernel's arrangement). -/
def inHalves (x : Fin 512 → EReal) (w1 : Fin 512 → Fin 1024 → EReal) (b1 : Fin 1024 → EReal) (w2 : Fin 1024 → EReal) (b2 : EReal) : EReal :=
  ((0 + ∑ k : Fin 512, hid x w1 b1 (lo k) * w2 (lo k)) + ∑ k : Fin 512, hid x w1 b1 (hi k) * w2 (hi k)) + b2

/-- The entry with one sum over the hidden axis (the reference's arrangement). -/
def inOne (x : Fin 512 → EReal) (w1 : Fin 512 → Fin 1024 → EReal) (b1 : Fin 1024 → EReal) (w2 : Fin 1024 → EReal) (b2 : EReal) : EReal :=
  (∑ k : Fin 1024, hid x w1 b1 k * w2 k) + b2

/-- A sum over 1024 indices is the sum over the lower 512 plus the sum over the upper 512. -/
theorem sum_halves (f : Fin 1024 → EReal) : (∑ k : Fin 1024, f k) = (∑ k : Fin 512, f (lo k)) + ∑ k : Fin 512, f (hi k) := by
  have h := Fin.sum_univ_add (M := EReal) (a := 512) (b := 512) (fun k : Fin (512 + 512) => f k)
  refine h.trans ?_
  rfl

/-- The two arrangements are one number. -/
theorem inHalves_eq_inOne (x : Fin 512 → EReal) (w1 : Fin 512 → Fin 1024 → EReal) (b1 : Fin 1024 → EReal) (w2 : Fin 1024 → EReal) (b2 : EReal) :
    inHalves x w1 b1 w2 b2 = inOne x w1 b1 w2 b2 := by
  unfold inHalves inOne
  rw [zero_add, sum_halves (fun k => hid x w1 b1 k * w2 k)]

/-- A weight column of a head of width `o`, zero beyond the head's own columns; and its bias entry. -/
def paddedCol (o : ℕ) (w2 : Fin 1024 → Fin o → EReal) (c : Fin 128) (k : Fin 1024) : EReal :=
  if h : c.val < o then w2 k ⟨c.val, h⟩ else 0
def paddedBias (o : ℕ) (b2 : Fin o → EReal) (c : Fin 128) : EReal :=
  if h : c.val < o then b2 ⟨c.val, h⟩ else 0

/-- The head's entry at column `c` of the 128: its own entry inside its width, zero beyond (the result padded). -/
def entry (x : Fin 512 → EReal) (w1 : Fin 512 → Fin 1024 → EReal) (b1 : Fin 1024 → EReal) (o : ℕ)
    (w2 : Fin 1024 → Fin o → EReal) (b2 : Fin o → EReal) (c : Fin 128) : EReal :=
  if h : c.val < o then inOne x w1 b1 (fun k => w2 k ⟨c.val, h⟩) (b2 ⟨c.val, h⟩) else 0

/-- Against padded weights and bias, the two-half arrangement is the padded result. -/
theorem inHalves_padded (x : Fin 512 → EReal) (w1 : Fin 512 → Fin 1024 → EReal) (b1 : Fin 1024 → EReal) (o : ℕ)
    (w2 : Fin 1024 → Fin o → EReal) (b2 : Fin o → EReal) (c : Fin 128) :
    inHalves x w1 b1 (paddedCol o w2 c) (paddedBias o b2 c) = entry x w1 b1 o w2 b2 c := by
  rw [inHalves_eq_inOne]
  unfold entry paddedCol paddedBias inOne
  by_cases h : c.val < o
  · simp only [dif_pos h]
  · simp only [dif_neg h, mul_zero, Finset.sum_const_zero, add_zero]

/-- The padding value both programs use — the 32-bit integer zero converted to a float — is zero. -/
theorem intZero_toFloat : Idealize.ShloMosaic.FloatOps.sitofp (F := Idealize.ShloMosaic.Ideal) .f32 (0#32 : BitVec 32) = (0 : EReal) := by
  show (((0#32 : BitVec 32).toInt : ℝ) : EReal) = 0
  simp

/-! ## The whole result as one function of the arguments -/

open Idealize.ShloMosaic Idealize.ShloMosaic.ValueIdx

/-- The `t`-th of four. -/
def pick4 {α : Type} (t : Fin 4) (a0 a1 a2 a3 : α) : α :=
  match t with
  | ⟨0, _⟩ => a0
  | ⟨1, _⟩ => a1
  | ⟨2, _⟩ => a2
  | ⟨3, _⟩ => a3

/-- Entry (t, n, c) of the result: head `t` (of width 128, 96, 64, 32) on row `n` of type `t`'s features, padded
    with zeros to 128 columns. -/
def resultAt (x0 x1 x2 x3 : (⟨2, ![16384, 512]⟩ : Shape).Idx → EReal) (W1 : (⟨3, ![4, 512, 1024]⟩ : Shape).Idx → EReal)
    (B1 : (⟨2, ![4, 1024]⟩ : Shape).Idx → EReal)
    (W2_0 : (⟨2, ![1024, 128]⟩ : Shape).Idx → EReal) (b2_0 : (⟨1, ![128]⟩ : Shape).Idx → EReal)
    (W2_1 : (⟨2, ![1024, 96]⟩ : Shape).Idx → EReal) (b2_1 : (⟨1, ![96]⟩ : Shape).Idx → EReal)
    (W2_2 : (⟨2, ![1024, 64]⟩ : Shape).Idx → EReal) (b2_2 : (⟨1, ![64]⟩ : Shape).Idx → EReal)
    (W2_3 : (⟨2, ![1024, 32]⟩ : Shape).Idx → EReal) (b2_3 : (⟨1, ![32]⟩ : Shape).Idx → EReal)
    (t : Fin 4) (n : Fin 16384) (c : Fin 128) : EReal :=
  match t with
  | ⟨0, _⟩ => entry (fun i => x0 (ix2 n i)) (fun i k => W1 (ix3 (0 : Fin 4) i k)) (fun k => B1 (ix2 (0 : Fin 4) k)) 128 (fun k c' => W2_0 (ix2 k c')) (fun c' => b2_0 (ix1 c')) c
  | ⟨1, _⟩ => entry (fun i => x1 (ix2 n i)) (fun i k => W1 (ix3 (1 : Fin 4) i k)) (fun k => B1 (ix2 (1 : Fin 4) k)) 96 (fun k c' => W2_1 (ix2 k c')) (fun c' => b2_1 (ix1 c')) c
  | ⟨2, _⟩ => entry (fun i => x2 (ix2 n i)) (fun i k => W1 (ix3 (2 : Fin 4) i k)) (fun k => B1 (ix2 (2 : Fin 4) k)) 64 (fun k c' => W2_2 (ix2 k c')) (fun c' => b2_2 (ix1 c')) c
  | ⟨3, _⟩ => entry (fun i => x3 (ix2 n i)) (fun i k => W1 (ix3 (3 : Fin 4) i k)) (fun k => B1 (ix2 (3 : Fin 4) k)) 32 (fun k c' => W2_3 (ix2 k c')) (fun c' => b2_3 (ix1 c')) c

/-- The 4 × 16384 × 128 result, index by index. -/
def result (x0 x1 x2 x3 : (⟨2, ![16384, 512]⟩ : Shape).Idx → EReal) (W1 : (⟨3, ![4, 512, 1024]⟩ : Shape).Idx → EReal)
    (B1 : (⟨2, ![4, 1024]⟩ : Shape).Idx → EReal)
    (W2_0 : (⟨2, ![1024, 128]⟩ : Shape).Idx → EReal) (b2_0 : (⟨1, ![128]⟩ : Shape).Idx → EReal)
    (W2_1 : (⟨2, ![1024, 96]⟩ : Shape).Idx → EReal) (b2_1 : (⟨1, ![96]⟩ : Shape).Idx → EReal)
    (W2_2 : (⟨2, ![1024, 64]⟩ : Shape).Idx → EReal) (b2_2 : (⟨1, ![64]⟩ : Shape).Idx → EReal)
    (W2_3 : (⟨2, ![1024, 32]⟩ : Shape).Idx → EReal) (b2_3 : (⟨1, ![32]⟩ : Shape).Idx → EReal) :
    (⟨3, ![4, 16384, 128]⟩ : Shape).Idx → EReal :=
  fun j => resultAt x0 x1 x2 x3 W1 B1 W2_0 b2_0 W2_1 b2_1 W2_2 b2_2 W2_3 b2_3
    ⟨(j 0).val, (j 0).isLt⟩ ⟨(j 1).val, (j 1).isLt⟩ ⟨(j 2).val, (j 2).isLt⟩

end Cert.Heads

end
-- ==== Proof.IdealBlocks.lean ====
/-
  From the body's block to the output array.

  At grid point p the output window's buffer is left, entry (t, r, c), at head t on row r of type t's block of 1024
  feature rows, with the hidden axis in two halves; the block is written back to rows 1024·p … 1024·p + 1023 of each
  of the four slabs of the 4 × 16384 × 128 array. The sixteen points' blocks tile the array, so after the run the
  array holds, entry (t, n, c), that same two-half expression of row n of type t's features and of the weight and
  bias arrays as the region found them.
-/
import proofs.«127226_j13099650253498_2_alg».proof.Proof.IdealFrame
import proofs.«127226_j13099650253498_2_alg».proof.Proof.IdealSlab
import proofs.«127226_j13099650253498_2_alg».proof.Proof.Heads
import Idealize.ShloMosaic.Lib.Pipeline.Value

set_option maxRecDepth 16384

noncomputable section

namespace Cert.KernelIdeal.Hand

open Cert.KernelIdeal Cert.KernelIdeal.Gen Cert.Heads
open Idealize.ShloMosaic Idealize.ShloMosaic.TcCoe Idealize.ShloMosaic.ValueIdx
open Idealize.SL Idealize.SL.Sem
open Idealize.ShloMosaic.Pipeline (Dat Cfg Window)

/-! ## Where each of the body's rectangles sits in its buffer -/

theorem featR_idx (r : Fin 1024) (i : Fin 512) : featR.idx (ix2 r i) = ix2 r i := by
  funext a; apply Fin.ext
  match a with
  | ⟨0, _⟩ => show 0 + 1 * r.val = r.val; omega
  | ⟨1, _⟩ => show 0 + 1 * i.val = i.val; omega
theorem w1R0a_idx (i k : Fin 512) : w1R0a.idx (ix3 (0 : Fin 1) i k) = ix3 (0 : Fin 4) i (lo k) := by
  funext a; apply Fin.ext
  match a with
  | ⟨0, _⟩ => rfl
  | ⟨1, _⟩ => show 0 + 1 * i.val = i.val; omega
  | ⟨2, _⟩ => show 0 + 1 * k.val = k.val; omega
theorem w1R0b_idx (i k : Fin 512) : w1R0b.idx (ix3 (0 : Fin 1) i k) = ix3 (0 : Fin 4) i (hi k) := by
  funext a; apply Fin.ext
  match a with
  | ⟨0, _⟩ => rfl
  | ⟨1, _⟩ => show 0 + 1 * i.val = i.val; omega
  | ⟨2, _⟩ => show 512 + 1 * k.val = 512 + k.val; omega
theorem b1R0a_idx (k : Fin 512) : b1R0a.idx (ix2 (0 : Fin 1) k) = ix2 (0 : Fin 4) (lo k) := by
  funext a; apply Fin.ext
  match a with
  | ⟨0, _⟩ => rfl
  | ⟨1, _⟩ => show 0 + 1 * k.val = k.val; omega
theorem b1R0b_idx (k : Fin 512) : b1R0b.idx (ix2 (0 : Fin 1) k) = ix2 (0 : Fin 4) (hi k) := by
  funext a; apply Fin.ext
  match a with
  | ⟨0, _⟩ => rfl
  | ⟨1, _⟩ => show 512 + 1 * k.val = 512 + k.val; omega
theorem w2R0a_idx (k : Fin 512) (c : Fin 128) : w2R0a.idx (ix3 (0 : Fin 1) k c) = ix3 (0 : Fin 4) (lo k) c := by
  funext a; apply Fin.ext
  match a with
  | ⟨0, _⟩ => rfl
  | ⟨1, _⟩ => show 0 + 1 * k.val = k.val; omega
  | ⟨2, _⟩ => show 0 + 1 * c.val = c.val; omega
theorem w2R0b_idx (k : Fin 512) (c : Fin 128) : w2R0b.idx (ix3 (0 : Fin 1) k c) = ix3 (0 : Fin 4) (hi k) c := by
  funext a; apply Fin.ext
  match a with
  | ⟨0, _⟩ => rfl
  | ⟨1, _⟩ => show 512 + 1 * k.val = 512 + k.val; omega
  | ⟨2, _⟩ => show 0 + 1 * c.val = c.val; omega
theorem b2R0_idx (c : Fin 128) : b2R0.idx (ix2 (0 : Fin 1) c) = ix2 (0 : Fin 4) c := by
  funext a; apply Fin.ext
  match a with
  | ⟨0, _⟩ => rfl
  | ⟨1, _⟩ => show 0 + 1 * c.val = c.val; omega
theorem outR0_emb (r : Fin 1024) (c : Fin 128) : outR0.emb (ix3 (0 : Fin 1) r c) = ix3 (0 : Fin 4) r c := by
  funext a; apply Fin.ext
  match a with
  | ⟨0, _⟩ => rfl
  | ⟨1, _⟩ => show 0 + 1 * r.val = r.val; omega
  | ⟨2, _⟩ => show 0 + 1 * c.val = c.val; omega
theorem w1R1a_idx (i k : Fin 512) : w1R1a.idx (ix3 (0 : Fin 1) i k) = ix3 (1 : Fin 4) i (lo k) := by
  funext a; apply Fin.ext
  match a with
  | ⟨0, _⟩ => rfl
  | ⟨1, _⟩ => show 0 + 1 * i.val = i.val; omega
  | ⟨2, _⟩ => show 0 + 1 * k.val = k.val; omega
theorem w1R1b_idx (i k : Fin 512) : w1R1b.idx (ix3 (0 : Fin 1) i k) = ix3 (1 : Fin 4) i (hi k) := by
  funext a; apply Fin.ext
  match a with
  | ⟨0, _⟩ => rfl
  | ⟨1, _⟩ => show 0 + 1 * i.val = i.val; omega
  | ⟨2, _⟩ => show 512 + 1 * k.val = 512 + k.val; omega
theorem b1R1a_idx (k : Fin 512) : b1R1a.idx (ix2 (0 : Fin 1) k) = ix2 (1 : Fin 4) (lo k) := by
  funext a; apply Fin.ext
  match a with
  | ⟨0, _⟩ => rfl
  | ⟨1, _⟩ => show 0 + 1 * k.val = k.val; omega
theorem b1R1b_idx (k : Fin 512) : b1R1b.idx (ix2 (0 : Fin 1) k) = ix2 (1 : Fin 4) (hi k) := by
  funext a; apply Fin.ext
  match a with
  | ⟨0, _⟩ => rfl
  | ⟨1, _⟩ => show 512 + 1 * k.val = 512 + k.val; omega
theorem w2R1a_idx (k : Fin 512) (c : Fin 128) : w2R1a.idx (ix3 (0 : Fin 1) k c) = ix3 (1 : Fin 4) (lo k) c := by
  funext a; apply Fin.ext
  match a with
  | ⟨0, _⟩ => rfl
  | ⟨1, _⟩ => show 0 + 1 * k.val = k.val; omega
  | ⟨2, _⟩ => show 0 + 1 * c.val = c.val; omega
theorem w2R1b_idx (k : Fin 512) (c : Fin 128) : w2R1b.idx (ix3 (0 : Fin 1) k c) = ix3 (1 : Fin 4) (hi k) c := by
  funext a; apply Fin.ext
  match a with
  | ⟨0, _⟩ => rfl
  | ⟨1, _⟩ => show 512 + 1 * k.val = 512 + k.val; omega
  | ⟨2, _⟩ => show 0 + 1 * c.val = c.val; omega
theorem b2R1_idx (c : Fin 128) : b2R1.idx (ix2 (0 : Fin 1) c) = ix2 (1 : Fin 4) c := by
  funext a; apply Fin.ext
  match a with
  | ⟨0, _⟩ => rfl
  | ⟨1, _⟩ => show 0 + 1 * c.val = c.val; omega
theorem outR1_emb (r : Fin 1024) (c : Fin 128) : outR1.emb (ix3 (0 : Fin 1) r c) = ix3 (1 : Fin 4) r c := by
  funext a; apply Fin.ext
  match a with
  | ⟨0, _⟩ => rfl
  | ⟨1, _⟩ => show 0 + 1 * r.val = r.val; omega
  | ⟨2, _⟩ => show 0 + 1 * c.val = c.val; omega
theorem w1R2a_idx (i k : Fin 512) : w1R2a.idx (ix3 (0 : Fin 1) i k) = ix3 (2 : Fin 4) i (lo k) := by
  funext a; apply Fin.ext
  match a with
  | ⟨0, _⟩ => rfl
  | ⟨1, _⟩ => show 0 + 1 * i.val = i.val; omega
  | ⟨2, _⟩ => show 0 + 1 * k.val = k.val; omega
theorem w1R2b_idx (i k : Fin 512) : w1R2b.idx (ix3 (0 : Fin 1) i k) = ix3 (2 : Fin 4) i (hi k) := by
  funext a; apply Fin.ext
  match a with
  | ⟨0, _⟩ => rfl
  | ⟨1, _⟩ => show 0 + 1 * i.val = i.val; omega
  | ⟨2, _⟩ => show 512 + 1 * k.val = 512 + k.val; omega
theorem b1R2a_idx (k : Fin 512) : b1R2a.idx (ix2 (0 : Fin 1) k) = ix2 (2 : Fin 4) (lo k) := by
  funext a; apply Fin.ext
  match a with
  | ⟨0, _⟩ => rfl
  | ⟨1, _⟩ => show 0 + 1 * k.val = k.val; omega
theorem b1R2b_idx (k : Fin 512) : b1R2b.idx (ix2 (0 : Fin 1) k) = ix2 (2 : Fin 4) (hi k) := by
  funext a; apply Fin.ext
  match a with
  | ⟨0, _⟩ => rfl
  | ⟨1, _⟩ => show 512 + 1 * k.val = 512 + k.val; omega
theorem w2R2a_idx (k : Fin 512) (c : Fin 128) : w2R2a.idx (ix3 (0 : Fin 1) k c) = ix3 (2 : Fin 4) (lo k) c := by
  funext a; apply Fin.ext
  match a with
  | ⟨0, _⟩ => rfl
  | ⟨1, _⟩ => show 0 + 1 * k.val = k.val; omega
  | ⟨2, _⟩ => show 0 + 1 * c.val = c.val; omega
theorem w2R2b_idx (k : Fin 512) (c : Fin 128) : w2R2b.idx (ix3 (0 : Fin 1) k c) = ix3 (2 : Fin 4) (hi k) c := by
  funext a; apply Fin.ext
  match a with
  | ⟨0, _⟩ => rfl
  | ⟨1, _⟩ => show 512 + 1 * k.val = 512 + k.val; omega
  | ⟨2, _⟩ => show 0 + 1 * c.val = c.val; omega
theorem b2R2_idx (c : Fin 128) : b2R2.idx (ix2 (0 : Fin 1) c) = ix2 (2 : Fin 4) c := by
  funext a; apply Fin.ext
  match a with
  | ⟨0, _⟩ => rfl
  | ⟨1, _⟩ => show 0 + 1 * c.val = c.val; omega
theorem outR2_emb (r : Fin 1024) (c : Fin 128) : outR2.emb (ix3 (0 : Fin 1) r c) = ix3 (2 : Fin 4) r c := by
  funext a; apply Fin.ext
  match a with
  | ⟨0, _⟩ => rfl
  | ⟨1, _⟩ => show 0 + 1 * r.val = r.val; omega
  | ⟨2, _⟩ => show 0 + 1 * c.val = c.val; omega
theorem w1R3a_idx (i k : Fin 512) : w1R3a.idx (ix3 (0 : Fin 1) i k) = ix3 (3 : Fin 4) i (lo k) := by
  funext a; apply Fin.ext
  match a with
  | ⟨0, _⟩ => rfl
  | ⟨1, _⟩ => show 0 + 1 * i.val = i.val; omega
  | ⟨2, _⟩ => show 0 + 1 * k.val = k.val; omega
theorem w1R3b_idx (i k : Fin 512) : w1R3b.idx (ix3 (0 : Fin 1) i k) = ix3 (3 : Fin 4) i (hi k) := by
  funext a; apply Fin.ext
  match a with
  | ⟨0, _⟩ => rfl
  | ⟨1, _⟩ => show 0 + 1 * i.val = i.val; omega
  | ⟨2, _⟩ => show 512 + 1 * k.val = 512 + k.val; omega
theorem b1R3a_idx (k : Fin 512) : b1R3a.idx (ix2 (0 : Fin 1) k) = ix2 (3 : Fin 4) (lo k) := by
  funext a; apply Fin.ext
  match a with
  | ⟨0, _⟩ => rfl
  | ⟨1, _⟩ => show 0 + 1 * k.val = k.val; omega
theorem b1R3b_idx (k : Fin 512) : b1R3b.idx (ix2 (0 : Fin 1) k) = ix2 (3 : Fin 4) (hi k) := by
  funext a; apply Fin.ext
  match a with
  | ⟨0, _⟩ => rfl
  | ⟨1, _⟩ => show 512 + 1 * k.val = 512 + k.val; omega
theorem w2R3a_idx (k : Fin 512) (c : Fin 128) : w2R3a.idx (ix3 (0 : Fin 1) k c) = ix3 (3 : Fin 4) (lo k) c := by
  funext a; apply Fin.ext
  match a with
  | ⟨0, _⟩ => rfl
  | ⟨1, _⟩ => show 0 + 1 * k.val = k.val; omega
  | ⟨2, _⟩ => show 0 + 1 * c.val = c.val; omega
theorem w2R3b_idx (k : Fin 512) (c : Fin 128) : w2R3b.idx (ix3 (0 : Fin 1) k c) = ix3 (3 : Fin 4) (hi k) c := by
  funext a; apply Fin.ext
  match a with
  | ⟨0, _⟩ => rfl
  | ⟨1, _⟩ => show 512 + 1 * k.val = 512 + k.val; omega
  | ⟨2, _⟩ => show 0 + 1 * c.val = c.val; omega
theorem b2R3_idx (c : Fin 128) : b2R3.idx (ix2 (0 : Fin 1) c) = ix2 (3 : Fin 4) c := by
  funext a; apply Fin.ext
  match a with
  | ⟨0, _⟩ => rfl
  | ⟨1, _⟩ => show 0 + 1 * c.val = c.val; omega
theorem outR3_emb (r : Fin 1024) (c : Fin 128) : outR3.emb (ix3 (0 : Fin 1) r c) = ix3 (3 : Fin 4) r c := by
  funext a; apply Fin.ext
  match a with
  | ⟨0, _⟩ => rfl
  | ⟨1, _⟩ => show 0 + 1 * r.val = r.val; omega
  | ⟨2, _⟩ => show 0 + 1 * c.val = c.val; omega

/-! ## The block as one function of the staged blocks -/

/-- Entry (t, r, c) of the output block: head `t` on row `r` of type `t`'s feature block, in two halves. -/
def blockEntry (x0 x1 x2 x3 : Vec Ideal S1024x512 .f32) (w1 : Vec Ideal S4x512x1024 .bf16) (b1 : Vec Ideal S4x1024 .f32)
    (w2 : Vec Ideal S4x1024x128 .bf16) (b2 : Vec Ideal S4x128 .f32) (t : Fin 4) (r : Fin 1024) (c : Fin 128) : EReal :=
  inHalves (fun i => pick4 t x0 x1 x2 x3 (ix2 r i)) (fun i k => w1 (ix3 t i k)) (fun k => b1 (ix2 t k)) (fun k => w2 (ix3 t k c)) (b2 (ix2 t c))

def blockFn (x0 x1 x2 x3 : Vec Ideal S1024x512 .f32) (w1 : Vec Ideal S4x512x1024 .bf16) (b1 : Vec Ideal S4x1024 .f32)
    (w2 : Vec Ideal S4x1024x128 .bf16) (b2 : Vec Ideal S4x128 .f32) : S4x1024x128.Idx → EReal :=
  fun y => blockEntry x0 x1 x2 x3 w1 b1 w2 b2 ⟨(y 0).val, (y 0).isLt⟩ ⟨(y 1).val, (y 1).isLt⟩ ⟨(y 2).val, (y 2).isLt⟩

/-- Slab 0 at entry (0, r, c) is head 0 on row r. -/
theorem slab0_apply (x : Vec Ideal S1024x512 .f32) (w1 : Vec Ideal S4x512x1024 .bf16) (b1 : Vec Ideal S4x1024 .f32)
    (w2 : Vec Ideal S4x1024x128 .bf16) (b2 : Vec Ideal S4x128 .f32) (r : Fin 1024) (c : Fin 128) :
    slab0 (F := Ideal) x w1 b1 w2 b2 (ix3 (0 : Fin 1) r c)
      = inHalves (fun i => x (ix2 r i)) (fun i k => w1 (ix3 (0 : Fin 4) i k)) (fun k => b1 (ix2 (0 : Fin 4) k)) (fun k => w2 (ix3 (0 : Fin 4) k c)) (b2 (ix2 (0 : Fin 4) c)) := by
  rw [slab0_eq, headVec_apply]
  unfold inHalves hid
  simp only [View.ld, featR_idx, w1R0a_idx, w1R0b_idx, b1R0a_idx, b1R0b_idx, w2R0a_idx, w2R0b_idx, b2R0_idx]
/-- Slab 1 at entry (0, r, c) is head 1 on row r. -/
theorem slab1_apply (x : Vec Ideal S1024x512 .f32) (w1 : Vec Ideal S4x512x1024 .bf16) (b1 : Vec Ideal S4x1024 .f32)
    (w2 : Vec Ideal S4x1024x128 .bf16) (b2 : Vec Ideal S4x128 .f32) (r : Fin 1024) (c : Fin 128) :
    slab1 (F := Ideal) x w1 b1 w2 b2 (ix3 (0 : Fin 1) r c)
      = inHalves (fun i => x (ix2 r i)) (fun i k => w1 (ix3 (1 : Fin 4) i k)) (fun k => b1 (ix2 (1 : Fin 4) k)) (fun k => w2 (ix3 (1 : Fin 4) k c)) (b2 (ix2 (1 : Fin 4) c)) := by
  rw [slab1_eq, headVec_apply]
  unfold inHalves hid
  simp only [View.ld, featR_idx, w1R1a_idx, w1R1b_idx, b1R1a_idx, b1R1b_idx, w2R1a_idx, w2R1b_idx, b2R1_idx]
/-- Slab 2 at entry (0, r, c) is head 2 on row r. -/
theorem slab2_apply (x : Vec Ideal S1024x512 .f32) (w1 : Vec Ideal S4x512x1024 .bf16) (b1 : Vec Ideal S4x1024 .f32)
    (w2 : Vec Ideal S4x1024x128 .bf16) (b2 : Vec Ideal S4x128 .f32) (r : Fin 1024) (c : Fin 128) :
    slab2 (F := Ideal) x w1 b1 w2 b2 (ix3 (0 : Fin 1) r c)
      = inHalves (fun i => x (ix2 r i)) (fun i k => w1 (ix3 (2 : Fin 4) i k)) (fun k => b1 (ix2 (2 : Fin 4) k)) (fun k => w2 (ix3 (2 : Fin 4) k c)) (b2 (ix2 (2 : Fin 4) c)) := by
  rw [slab2_eq, headVec_apply]
  unfold inHalves hid
  simp only [View.ld, featR_idx, w1R2a_idx, w1R2b_idx, b1R2a_idx, b1R2b_idx, w2R2a_idx, w2R2b_idx, b2R2_idx]
/-- Slab 3 at entry (0, r, c) is head 3 on row r. -/
theorem slab3_apply (x : Vec Ideal S1024x512 .f32) (w1 : Vec Ideal S4x512x1024 .bf16) (b1 : Vec Ideal S4x1024 .f32)
    (w2 : Vec Ideal S4x1024x128 .bf16) (b2 : Vec Ideal S4x128 .f32) (r : Fin 1024) (c : Fin 128) :
    slab3 (F := Ideal) x w1 b1 w2 b2 (ix3 (0 : Fin 1) r c)
      = inHalves (fun i => x (ix2 r i)) (fun i k => w1 (ix3 (3 : Fin 4) i k)) (fun k => b1 (ix2 (3 : Fin 4) k)) (fun k => w2 (ix3 (3 : Fin 4) k c)) (b2 (ix2 (3 : Fin 4) c)) := by
  rw [slab3_eq, headVec_apply]
  unfold inHalves hid
  simp only [View.ld, featR_idx, w1R3a_idx, w1R3b_idx, b1R3a_idx, b1R3b_idx, w2R3a_idx, w2R3b_idx, b2R3_idx]

/-- The output block after the body is that function of the eight input blocks. -/
theorem outBlock_eq (x0 x1 x2 x3 : Vec Ideal S1024x512 .f32) (w1 : Vec Ideal S4x512x1024 .bf16) (b1 : Vec Ideal S4x1024 .f32)
    (w2 : Vec Ideal S4x1024x128 .bf16) (b2 : Vec Ideal S4x128 .f32) :
    outBlock (F := Ideal) x0 x1 x2 x3 w1 b1 w2 b2 = blockFn x0 x1 x2 x3 w1 b1 w2 b2 := by
  funext y
  unfold outBlock
  refine View.canon_apply_of_pieces (Val := Elt Ideal) (S := S4x1024x128) (e := .f32) (blockFn x0 x1 x2 x3 w1 b1 w2 b2 : S4x1024x128.Idx → Elt Ideal .f32) _ ?_ y (slabs_cover _ _ _ _ y)
  intro p hp x
  simp only [List.mem_cons, List.not_mem_nil, or_false] at hp
  rcases hp with rfl | rfl | rfl | rfl
  · obtain ⟨u, r, c, rfl⟩ : ∃ (u : Fin 1) (r : Fin 1024) (c : Fin 128), x = ix3 u r c := ⟨x 0, x 1, x 2, eq_ix3 x⟩
    obtain rfl : u = 0 := Subsingleton.elim _ _
    show slab3 (F := Ideal) x3 w1 b1 w2 b2 (ix3 (0 : Fin 1) r c) = blockFn x0 x1 x2 x3 w1 b1 w2 b2 (outR3.emb (ix3 (0 : Fin 1) r c))
    rw [slab3_apply, outR3_emb]
    rfl
  · obtain ⟨u, r, c, rfl⟩ : ∃ (u : Fin 1) (r : Fin 1024) (c : Fin 128), x = ix3 u r c := ⟨x 0, x 1, x 2, eq_ix3 x⟩
    obtain rfl : u = 0 := Subsingleton.elim _ _
    show slab2 (F := Ideal) x2 w1 b1 w2 b2 (ix3 (0 : Fin 1) r c) = blockFn x0 x1 x2 x3 w1 b1 w2 b2 (outR2.emb (ix3 (0 : Fin 1) r c))
    rw [slab2_apply, outR2_emb]
    rfl
  · obtain ⟨u, r, c, rfl⟩ : ∃ (u : Fin 1) (r : Fin 1024) (c : Fin 128), x = ix3 u r c := ⟨x 0, x 1, x 2, eq_ix3 x⟩
    obtain rfl : u = 0 := Subsingleton.elim _ _
    show slab1 (F := Ideal) x1 w1 b1 w2 b2 (ix3 (0 : Fin 1) r c) = blockFn x0 x1 x2 x3 w1 b1 w2 b2 (outR1.emb (ix3 (0 : Fin 1) r c))
    rw [slab1_apply, outR1_emb]
    rfl
  · obtain ⟨u, r, c, rfl⟩ : ∃ (u : Fin 1) (r : Fin 1024) (c : Fin 128), x = ix3 u r c := ⟨x 0, x 1, x 2, eq_ix3 x⟩
    obtain rfl : u = 0 := Subsingleton.elim _ _
    show slab0 (F := Ideal) x0 w1 b1 w2 b2 (ix3 (0 : Fin 1) r c) = blockFn x0 x1 x2 x3 w1 b1 w2 b2 (outR0.emb (ix3 (0 : Fin 1) r c))
    rw [slab0_apply, outR0_emb]
    rfl

/-! ## Each window's block, read off the array the region finds -/

variable (m : (ℓ : Loc nD τ sig) → Buf (Elt Ideal) ℓ) (ρ : Dev nD → PrngReg)

/-- The printed index maps over the grid: a feature window and the output window move one block per point along
    their row axis; the four weight and bias windows stay at block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0
    ∧ win0_8.index t (0 : Fin 3) = 0 ∧ win0_8.index t (1 : Fin 3) = t.val ∧ win0_8.index t (2 : Fin 3) = 0 :=
  (by decide +kernel : ∀ t : Fin grid0.N, _)

theorem point_lt (t : Fin cfg0.N) : t.val < 16 := by have h := t.isLt; have hN : cfg0.N = 16 := N_0; omega

/-- Row `r` of the block at point `t` is row 1024·t + r of the array. -/
def rowAt (t : Fin cfg0.N) (r : Fin 1024) : Fin 16384 := ⟨t.val * 1024 + r.val, by have := point_lt t; omega⟩

theorem iblk0_apply (c : Dev nD) (t : Fin cfg0.N) (r : Fin 1024) (i : Fin 512) :
    iblk m c 0 t (ix2 r i) = V m c main_arg0 (ix2 (rowAt t r) i) := by
  obtain ⟨e00, e01, e10, e11, e20, e21, e30, e31, -⟩ := index_facts t
  show V m c main_arg0 (((cfg0.win 0).blk t).view.emb (ix2 r i)) = V m c main_arg0 (ix2 (rowAt t r) i)
  refine congrArg _ (funext fun a => Fin.ext ?_)
  match a with
  | ⟨0, _⟩ => show win0_0.index t (0 : Fin 2) * 1024 + 1 * r.val = t.val * 1024 + r.val; rw [e00]; omega
  | ⟨1, _⟩ => show win0_0.index t (1 : Fin 2) * 512 + 1 * i.val = i.val; rw [e01]; omega
theorem iblk1_apply (c : Dev nD) (t : Fin cfg0.N) (r : Fin 1024) (i : Fin 512) :
    iblk m c 1 t (ix2 r i) = V m c main_arg1 (ix2 (rowAt t r) i) := by
  obtain ⟨e00, e01, e10, e11, e20, e21, e30, e31, -⟩ := index_facts t
  show V m c main_arg1 (((cfg0.win 1).blk t).view.emb (ix2 r i)) = V m c main_arg1 (ix2 (rowAt t r) i)
  refine congrArg _ (funext fun a => Fin.ext ?_)
  match a with
  | ⟨0, _⟩ => show win0_1.index t (0 : Fin 2) * 1024 + 1 * r.val = t.val * 1024 + r.val; rw [e10]; omega
  | ⟨1, _⟩ => show win0_1.index t (1 : Fin 2) * 512 + 1 * i.val = i.val; rw [e11]; omega
theorem iblk2_apply (c : Dev nD) (t : Fin cfg0.N) (r : Fin 1024) (i : Fin 512) :
    iblk m c 2 t (ix2 r i) = V m c main_arg2 (ix2 (rowAt t r) i) := by
  obtain ⟨e00, e01, e10, e11, e20, e21, e30, e31, -⟩ := index_facts t
  show V m c main_arg2 (((cfg0.win 2).blk t).view.emb (ix2 r i)) = V m c main_arg2 (ix2 (rowAt t r) i)
  refine congrArg _ (funext fun a => Fin.ext ?_)
  match a with
  | ⟨0, _⟩ => show win0_2.index t (0 : Fin 2) * 1024 + 1 * r.val = t.val * 1024 + r.val; rw [e20]; omega
  | ⟨1, _⟩ => show win0_2.index t (1 : Fin 2) * 512 + 1 * i.val = i.val; rw [e21]; omega
theorem iblk3_apply (c : Dev nD) (t : Fin cfg0.N) (r : Fin 1024) (i : Fin 512) :
    iblk m c 3 t (ix2 r i) = V m c main_arg3 (ix2 (rowAt t r) i) := by
  obtain ⟨e00, e01, e10, e11, e20, e21, e30, e31, -⟩ := index_facts t
  show V m c main_arg3 (((cfg0.win 3).blk t).view.emb (ix2 r i)) = V m c main_arg3 (ix2 (rowAt t r) i)
  refine congrArg _ (funext fun a => Fin.ext ?_)
  match a with
  | ⟨0, _⟩ => show win0_3.index t (0 : Fin 2) * 1024 + 1 * r.val = t.val * 1024 + r.val; rw [e30]; omega
  | ⟨1, _⟩ => show win0_3.index t (1 : Fin 2) * 512 + 1 * i.val = i.val; rw [e31]; omega
theorem iblk4_eq (c : Dev nD) (t : Fin cfg0.N) : iblk m c 4 t = V m c main_v0 := by
  obtain ⟨-, -, -, -, -, -, -, -, e0, e1, e2, -⟩ := index_facts t
  funext y
  show V m c main_v0 (((cfg0.win 4).blk t).view.emb y) = V m c main_v0 y
  refine congrArg _ (funext fun a => Fin.ext ?_)
  match a with
  | ⟨0, _⟩ => show win0_4.index t (0 : Fin 3) * 4 + 1 * (y 0).val = (y 0).val; rw [e0]; omega
  | ⟨1, _⟩ => show win0_4.index t (1 : Fin 3) * 512 + 1 * (y 1).val = (y 1).val; rw [e1]; omega
  | ⟨2, _⟩ => show win0_4.index t (2 : Fin 3) * 1024 + 1 * (y 2).val = (y 2).val; rw [e2]; omega
theorem iblk5_eq (c : Dev nD) (t : Fin cfg0.N) : iblk m c 5 t = V m c main_arg6 := by
  obtain ⟨-, -, -, -, -, -, -, -, -, -, -, e0, e1, -⟩ := index_facts t
  funext y
  show V m c main_arg6 (((cfg0.win 5).blk t).view.emb y) = V m c main_arg6 y
  refine congrArg _ (funext fun a => Fin.ext ?_)
  match a with
  | ⟨0, _⟩ => show win0_5.index t (0 : Fin 2) * 4 + 1 * (y 0).val = (y 0).val; rw [e0]; omega
  | ⟨1, _⟩ => show win0_5.index t (1 : Fin 2) * 1024 + 1 * (y 1).val = (y 1).val; rw [e1]; omega
theorem iblk6_eq (c : Dev nD) (t : Fin cfg0.N) : iblk m c 6 t = V m c main_v10 := by
  obtain ⟨-, -, -, -, -, -, -, -, -, -, -, -, -, e0, e1, e2, -⟩ := index_facts t
  funext y
  show V m c main_v10 (((cfg0.win 6).blk t).view.emb y) = V m c main_v10 y
  refine congrArg _ (funext fun a => Fin.ext ?_)
  match a with
  | ⟨0, _⟩ => show win0_6.index t (0 : Fin 3) * 4 + 1 * (y 0).val = (y 0).val; rw [e0]; omega
  | ⟨1, _⟩ => show win0_6.index t (1 : Fin 3) * 1024 + 1 * (y 1).val = (y 1).val; rw [e1]; omega
  | ⟨2, _⟩ => show win0_6.index t (2 : Fin 3) * 128 + 1 * (y 2).val = (y 2).val; rw [e2]; omega
theorem iblk7_eq (c : Dev nD) (t : Fin cfg0.N) : iblk m c 7 t = V m c main_v19 := by
  obtain ⟨-, -, -, -, -, -, -, -, -, -, -, -, -, -, -, -, e0, e1, -⟩ := index_facts t
  funext y
  show V m c main_v19 (((cfg0.win 7).blk t).view.emb y) = V m c main_v19 y
  refine congrArg _ (funext fun a => Fin.ext ?_)
  match a with
  | ⟨0, _⟩ => show win0_7.index t (0 : Fin 2) * 4 + 1 * (y 0).val = (y 0).val; rw [e0]; omega
  | ⟨1, _⟩ => show win0_7.index t (1 : Fin 2) * 128 + 1 * (y 1).val = (y 1).val; rw [e1]; omega

/-! ## The array as one function of the arrays the region finds -/

/-- Entry (t, n, c) of the output array, from whole arrays. -/
def arrayEntry (X0 X1 X2 X3 : S16384x512.Idx → EReal) (W1 : S4x512x1024.Idx → EReal) (B1 : S4x1024.Idx → EReal)
    (W2 : S4x1024x128.Idx → EReal) (B2 : S4x128.Idx → EReal) (t : Fin 4) (n : Fin 16384) (c : Fin 128) : EReal :=
  inHalves (fun i => pick4 t X0 X1 X2 X3 (ix2 n i)) (fun i k => W1 (ix3 t i k)) (fun k => B1 (ix2 t k)) (fun k => W2 (ix3 t k c)) (B2 (ix2 t c))

def arrayFn (X0 X1 X2 X3 : S16384x512.Idx → EReal) (W1 : S4x512x1024.Idx → EReal) (B1 : S4x1024.Idx → EReal)
    (W2 : S4x1024x128.Idx → EReal) (B2 : S4x128.Idx → EReal) : S4x16384x128.Idx → EReal :=
  fun j => arrayEntry X0 X1 X2 X3 W1 B1 W2 B2 ⟨(j 0).val, (j 0).isLt⟩ ⟨(j 1).val, (j 1).isLt⟩ ⟨(j 2).val, (j 2).isLt⟩

/-- Where entry (t', r, c) of the block at point `t` sits in the array. -/
theorem out_emb (t : Fin cfg0.N) (t' : Fin 4) (r : Fin 1024) (c : Fin 128) :
    ((cfg0.win 8).blk t).view.emb (ix3 t' r c) = ix3 t' (rowAt t r) c := by
  obtain ⟨-, -, -, -, -, -, -, -, -, -, -, -, -, -, -, -, -, -, e0, e1, e2⟩ := index_facts t
  funext a; apply Fin.ext
  match a with
  | ⟨0, _⟩ => show win0_8.index t (0 : Fin 3) * 4 + 1 * t'.val = t'.val; rw [e0]; omega
  | ⟨1, _⟩ => show win0_8.index t (1 : Fin 3) * 1024 + 1 * r.val = t.val * 1024 + r.val; rw [e1]; omega
  | ⟨2, _⟩ => show win0_8.index t (2 : Fin 3) * 128 + 1 * c.val = c.val; rw [e2]; omega

/-- What point `t` writes back is block `t` of that function of the arrays as the region finds them. -/
theorem flushed_eq (c : Dev nD) (t : Fin cfg0.N) :
    (dats m 0 c).flushed 8 t = ((cfg0.win 8).blk t).view.read (Elt Ideal)
      (arrayFn (V m c main_arg0) (V m c main_arg1) (V m c main_arg2) (V m c main_arg3) (V m c main_v0) (V m c main_arg6) (V m c main_v10) (V m c main_v19)) := by
  show (cfg0.win 8).cut (grid0.coords t) ((dats m 0 c).after 8 t) = _
  rw [after_out, outBlock_eq, iblk4_eq, iblk5_eq, iblk6_eq, iblk7_eq]
  funext y
  obtain ⟨t', r, c', rfl⟩ : ∃ (t' : Fin 4) (r : Fin 1024) (c' : Fin 128), y = ix3 t' r c' := ⟨y 0, y 1, y 2, eq_ix3 y⟩
  show blockEntry (iblk m c 0 t) (iblk m c 1 t) (iblk m c 2 t) (iblk m c 3 t) (V m c main_v0) (V m c main_arg6) (V m c main_v10) (V m c main_v19) t' r c'
      = arrayFn (V m c main_arg0) (V m c main_arg1) (V m c main_arg2) (V m c main_arg3) (V m c main_v0) (V m c main_arg6) (V m c main_v10) (V m c main_v19)
          (((cfg0.win 8).blk t).view.emb (ix3 t' r c'))
  rw [out_emb]
  show blockEntry (iblk m c 0 t) (iblk m c 1 t) (iblk m c 2 t) (iblk m c 3 t) (V m c main_v0) (V m c main_arg6) (V m c main_v10) (V m c main_v19) t' r c'
      = arrayEntry (V m c main_arg0) (V m c main_arg1) (V m c main_arg2) (V m c main_arg3) (V m c main_v0) (V m c main_arg6) (V m c main_v10) (V m c main_v19) t' (rowAt t r) c'
  unfold blockEntry arrayEntry
  have hx : (fun i : Fin 512 => pick4 t' (iblk m c 0 t) (iblk m c 1 t) (iblk m c 2 t) (iblk m c 3 t) (ix2 r i))
      = fun i : Fin 512 => pick4 t' (V m c main_arg0) (V m c main_arg1) (V m c main_arg2) (V m c main_arg3) (ix2 (rowAt t r) i) := by
    funext i
    match t' with
    | ⟨0, _⟩ => exact iblk0_apply m c t r i
    | ⟨1, _⟩ => exact iblk1_apply m c t r i
    | ⟨2, _⟩ => exact iblk2_apply m c t r i
    | ⟨3, _⟩ => exact iblk3_apply m c t r i
  rw [hx]

/-- An index of the array is in point `t`'s block iff each coordinate is in the block's range on its axis. -/
theorem mem_out_blk (t : Fin cfg0.N) (i : S4x16384x128.Idx) :
    i ∈ ((cfg0.win 8).blk t).view.set ↔ ∀ a : Fin 3, win0_8.index t a * S4x1024x128.size a ≤ (i a).val
      ∧ (i a).val < win0_8.index t a * S4x1024x128.size a + S4x1024x128.size a := by
  show i ∈ ((View.whole main_v20).slice (win0_8.rect t)).set ↔ _
  rw [View.set_slice_whole, Rect.mem_set_unit]
  exact Iff.rfl

/-- The sixteen blocks tile the array: row n lies in the block of point n / 1024. -/
theorem out_cover (i : S4x16384x128.Idx) :
    ∃ t : Fin cfg0.N, (cfg0.win 8).flush t = true ∧ i ∈ ((cfg0.win 8).blk t).view.set := by
  have h0 : (i 0).val < 4 := (i 0).isLt
  have h1 : (i 1).val < 16384 := (i 1).isLt
  have h2 : (i 2).val < 128 := (i 2).isLt
  have hN : cfg0.N = 16 := N_0
  let t : Fin cfg0.N := ⟨(i 1).val / 1024, by rw [hN]; omega⟩
  have ht : t.val = (i 1).val / 1024 := rfl
  obtain ⟨-, -, -, -, -, -, -, -, -, -, -, -, -, -, -, -, -, -, e0, e1, e2⟩ := index_facts t
  refine ⟨t, flush0_8 t, ?_⟩
  rw [mem_out_blk]
  intro a
  match a with
  | ⟨0, _⟩ => show win0_8.index t (0 : Fin 3) * 4 ≤ (i 0).val ∧ (i 0).val < win0_8.index t (0 : Fin 3) * 4 + 4; rw [e0]; omega
  | ⟨1, _⟩ => show win0_8.index t (1 : Fin 3) * 1024 ≤ (i 1).val ∧ (i 1).val < win0_8.index t (1 : Fin 3) * 1024 + 1024; rw [e1, ht]; omega
  | ⟨2, _⟩ => show win0_8.index t (2 : Fin 3) * 128 ≤ (i 2).val ∧ (i 2).val < win0_8.index t (2 : Fin 3) * 128 + 128; rw [e2]; omega

/-- The output array after the run. -/
theorem out_final (c : Dev nD) : (dats m 0 c).arrAt 8 cfg0.N
    = arrayFn (V m c main_arg0) (V m c main_arg1) (V m c main_arg2) (V m c main_arg3) (V m c main_v0) (V m c main_arg6) (V m c main_v10) (V m c main_v19) :=
  (dats m 0 c).arrAt_eq_of_cover 8 _ (fun t _ => flushed_eq m c t) out_cover

end Cert.KernelIdeal.Hand

end
-- ==== Proof.LibStackPad.lean ====
/-
  Stacking and padding read at an index, for any extents and any element type.

  `jnp.stack` of four arrays lowers to four broadcasts that give each array a leading axis of extent one and one
  concatenation along that axis; `jnp.pad` with zeros after the last axis lowers to one `pad`. Read at an index:

  * an [a, b] array given a leading unit axis reads, at (0, i, j), the array at (i, j); a [b] vector likewise;
  * four [1, a, b] pieces concatenated along the leading axis read, at (t, i, j), piece t at (0, i, j); four [1, b]
    pieces likewise;
  * an [a, o] array padded after its last axis to [a, n] reads, at (i, j), the array at (i, j) while j < o and the
    padding value from column o on; a [o] vector likewise.
-/
import Idealize.ShloMosaic.Lib.Pipeline.Value
import Idealize.ShloMosaic.Lib.KernelVsHost
import Idealize.ShloMosaic.Lib.ValueIdx

noncomputable section

namespace Cert.StackPad

open Idealize.ShloMosaic Idealize.ShloMosaic.ValueIdx

variable {α : Type}

/-! ## A leading unit axis added by a broadcast -/

/-- An [a, b] array broadcast to [1, a, b] along its own two axes reads, at (u, i, j), the array at (i, j). -/
theorem lead3_apply {a b : ℕ} (x : (⟨2, ![a, b]⟩ : Shape).Idx → α)
    (h : (⟨2, ![a, b]⟩ : Shape).BroadcastsInDim ⟨3, ![1, a, b]⟩ (![1, 2] : Fin 2 → Fin 3)) (u : Fin 1) (i : Fin a) (j : Fin b) :
    broadcastInDim ⟨3, ![1, a, b]⟩ ![1, 2] h x (ix3 u i j) = x (ix2 i j) := by
  refine broadcastInDim_apply _ h x _ _ fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A [b] vector broadcast to [1, b] along its own axis reads, at (u, j), the vector at j. -/
theorem lead2_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ _ fun ax => ?_
  match ax with
  | ⟨0, _⟩ =>
    show j.val = if b = 1 then 0 else j.val
    split
    · have := j.isLt; omega
    · rfl

/-! ## Four unit-leading pieces stacked -/

/-- Four [1, a, b] pieces concatenated along the leading axis read, at (t, i, j), piece t at (0, i, j). -/
theorem stack4_lead3_apply {a b : ℕ} (x0 x1 x2 x3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (t : Fin 4) (i : Fin a) (j : Fin b) :
    concatenate ⟨3, ![4, a, b]⟩ 0 [⟨⟨3, ![1, a, b]⟩, x0⟩, ⟨⟨3, ![1, a, b]⟩, x1⟩, ⟨⟨3, ![1, a, b]⟩, x2⟩, ⟨⟨3, ![1, a, b]⟩, x3⟩] h (ix3 t i j)
      = (![x0, x1, x2, x3] : Fin 4 → _) t (ix3 (0 : Fin 1) i j) := by
  have hoff : ∀ b' : Fin 3, b'.cast (rfl : (3 : ℕ) = 3) ≠ (0 : Fin 3) →
      ((ix3 (0 : Fin 1) i j : (⟨3, ![1, a, b]⟩ : Shape).Idx) b').val = ((ix3 t i j : (⟨3, ![4, a, b]⟩ : Shape).Idx) (b'.cast rfl)).val := fun b' hb' => by
    match b' with
    | ⟨0, _⟩ => exact absurd rfl hb'
    | ⟨1, _⟩ => rfl
    | ⟨2, _⟩ => rfl
  match t with
  | ⟨0, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨0, by omega⟩ : Fin 4) i j) 0 (by show (0 : ℕ) < 4; omega) ⟨3, ![1, a, b]⟩ x0 rfl rfl 0 (by rfl) (ix3 (0 : Fin 1) i j) hoff (by rfl)
  | ⟨1, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨1, by omega⟩ : Fin 4) i j) 1 (by show (1 : ℕ) < 4; omega) ⟨3, ![1, a, b]⟩ x1 rfl rfl 1 (by rfl) (ix3 (0 : Fin 1) i j) hoff (by rfl)
  | ⟨2, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨2, by omega⟩ : Fin 4) i j) 2 (by show (2 : ℕ) < 4; omega) ⟨3, ![1, a, b]⟩ x2 rfl rfl 2 (by rfl) (ix3 (0 : Fin 1) i j) hoff (by rfl)
  | ⟨3, _⟩ =>
    exact concatenate_apply_piece (t := ⟨3, ![4, a, b]⟩) (0 : Fin 3) [⟨⟨3, ![1, a, b]⟩, x0⟩, ⟨⟨3, ![1, a, b]⟩, x1⟩, ⟨⟨3, ![1, a, b]⟩, x2⟩, ⟨⟨3, ![1, a, b]⟩, x3⟩] h (ix3 (⟨3, by omega⟩ : Fin 4) i j) 3 (by show (3 : ℕ) < 4; omega) ⟨3, ![1, a, b]⟩ x3 rfl rfl 3 (by rfl) (ix3 (0 : Fin 1) i j) hoff (by rfl)

/-- Four [1, b] pieces concatenated along the leading axis read, at (t, j), piece t at (0, j). -/
theorem stack4_lead2_apply {b : ℕ} (x0 x1 x2 x3 : (⟨2, ![1, b]⟩ : Shape).Idx → α)
    (h : Shape.Concatenates [(⟨2, ![1, b]⟩ : Shape), ⟨2, ![1, b]⟩, ⟨2, ![1, b]⟩, ⟨2, ![1, b]⟩] ⟨2, ![4, b]⟩ 0)
    (t : Fin 4) (j : Fin b) :
    concatenate ⟨2, ![4, b]⟩ 0 [⟨⟨2, ![1, b]⟩, x0⟩, ⟨⟨2, ![1, b]⟩, x1⟩, ⟨⟨2, ![1, b]⟩, x2⟩, ⟨⟨2, ![1, b]⟩, x3⟩] h (ix2 t j)
      = (![x0, x1, x2, x3] : Fin 4 → _) t (ix2 (0 : Fin 1) j) := by
  have hoff : ∀ b' : Fin 2, b'.cast (rfl : (2 : ℕ) = 2) ≠ (0 : Fin 2) →
      ((ix2 (0 : Fin 1) j : (⟨2, ![1, b]⟩ : Shape).Idx) b').val = ((ix2 t j : (⟨2, ![4, b]⟩ : Shape).Idx) (b'.cast rfl)).val := fun b' hb' => by
    match b' with
    | ⟨0, _⟩ => exact absurd rfl hb'
    | ⟨1, _⟩ => rfl
  match t with
  | ⟨0, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨0, by omega⟩ : Fin 4) j) 0 (by show (0 : ℕ) < 4; omega) ⟨2, ![1, b]⟩ x0 rfl rfl 0 (by rfl) (ix2 (0 : Fin 1) j) hoff (by rfl)
  | ⟨1, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨1, by omega⟩ : Fin 4) j) 1 (by show (1 : ℕ) < 4; omega) ⟨2, ![1, b]⟩ x1 rfl rfl 1 (by rfl) (ix2 (0 : Fin 1) j) hoff (by rfl)
  | ⟨2, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨2, by omega⟩ : Fin 4) j) 2 (by show (2 : ℕ) < 4; omega) ⟨2, ![1, b]⟩ x2 rfl rfl 2 (by rfl) (ix2 (0 : Fin 1) j) hoff (by rfl)
  | ⟨3, _⟩ =>
    exact concatenate_apply_piece (t := ⟨2, ![4, b]⟩) (0 : Fin 2) [⟨⟨2, ![1, b]⟩, x0⟩, ⟨⟨2, ![1, b]⟩, x1⟩, ⟨⟨2, ![1, b]⟩, x2⟩, ⟨⟨2, ![1, b]⟩, x3⟩] h (ix2 (⟨3, by omega⟩ : Fin 4) j) 3 (by show (3 : ℕ) < 4; omega) ⟨2, ![1, b]⟩ x3 rfl rfl 3 (by rfl) (ix2 (0 : Fin 1) j) hoff (by rfl)

/-! ## Padding after the last axis -/

/-- An [a, o] array padded after its last axis to [a, n] reads, at (i, j), the array at (i, j) while j < o, and the
    padding value from column o on. -/
theorem padCols_apply {a o p n : ℕ} (x : (⟨2, ![a, o]⟩ : Shape).Idx → α) {u : Shape} (v : u.Idx → α)
    (h : (⟨2, ![a, o]⟩ : Shape).Pads (![0, 0] : Fin 2 → ℕ) ![0, p] ![0, 0] ⟨2, ![a, n]⟩) (hu : 0 < u.numel) (i : Fin a) (j : Fin n) :
    pad ⟨2, ![a, n]⟩ ![0, 0] ![0, p] ![0, 0] x v h hu (ix2 i j)
      = if hj : j.val < o then x (ix2 i ⟨j.val, hj⟩) else v (Shape.Idx.first hu) := by
  by_cases hj : j.val < o
  · rw [dif_pos hj]
    refine pad_apply_of_inside _ _ _ x v h hu _ (ix2 i ⟨j.val, hj⟩) fun ax => ?_
    match ax with
    | ⟨0, _⟩ => show i.val = 0 + i.val * (0 + 1); omega
    | ⟨1, _⟩ => show j.val = 0 + j.val * (0 + 1); omega
  · rw [dif_neg hj]
    refine pad_apply_of_not_inside _ _ _ x v h hu _ (1 : Fin 2) ?_
    show ¬(0 ≤ j.val ∧ (j.val - 0) % (0 + 1) = 0 ∧ (j.val - 0) / (0 + 1) < o)
    rintro ⟨-, -, h3⟩
    rw [Nat.sub_zero, Nat.zero_add, Nat.div_one] at h3
    exact hj h3

/-- A [o] vector padded after its axis to [n] reads, at j, the vector at j while j < o, and the padding value from
    entry o on. -/
theorem padTail_apply {o p n : ℕ} (x : (⟨1, ![o]⟩ : Shape).Idx → α) {u : Shape} (v : u.Idx → α)
    (h : (⟨1, ![o]⟩ : Shape).Pads (![0] : Fin 1 → ℕ) ![p] ![0] ⟨1, ![n]⟩) (hu : 0 < u.numel) (j : Fin n) :
    pad ⟨1, ![n]⟩ ![0] ![p] ![0] x v h hu (ix1 j)
      = if hj : j.val < o then x (ix1 ⟨j.val, hj⟩) else v (Shape.Idx.first hu) := by
  by_cases hj : j.val < o
  · rw [dif_pos hj]
    refine pad_apply_of_inside _ _ _ x v h hu _ (ix1 ⟨j.val, hj⟩) fun ax => ?_
    match ax with
    | ⟨0, _⟩ => show j.val = 0 + j.val * (0 + 1); omega
  · rw [dif_neg hj]
    refine pad_apply_of_not_inside _ _ _ x v h hu _ (0 : Fin 1) ?_
    show ¬(0 ≤ j.val ∧ (j.val - 0) % (0 + 1) = 0 ∧ (j.val - 0) / (0 + 1) < o)
    rintro ⟨-, -, h3⟩
    rw [Nat.sub_zero, Nat.zero_add, Nat.div_one] at h3
    exact hj h3

end Cert.StackPad

end
-- ==== Proof.IdealEntryValues.lean ====
/-
  What the region finds in the three arrays the host side computed, at the extended reals: the first-layer weights
  rounded to bf16 are the weights; the stacked, padded second-layer weights at (t, k, c) are W2_t(k, c) inside head t's
  own width and zero beyond; the stacked, padded biases at (t, c) likewise.
-/
import proofs.«127226_j13099650253498_2_alg».proof.Proof.IdealEntry
import proofs.«127226_j13099650253498_2_alg».proof.Proof.LibStackPad
import proofs.«127226_j13099650253498_2_alg».proof.Proof.Heads
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Heads
open Idealize.ShloMosaic Idealize.ShloMosaic.TcCoe Idealize.ShloMosaic.StableHlo Idealize.ShloMosaic.ValueIdx
open Idealize.SL.Sem

variable (m : (ℓ : Loc nD τ sig) → Buf (Elt Ideal) ℓ)

/-- The padding value is zero: the integer zero converted to a float. -/
theorem padValue_zero : (sitofp (F := Ideal) .f32 (constantI S_ 32 0#32)) (Shape.Idx.first h_S_) = (0 : EReal) := by
  exact intZero_toFloat

/-- The four second-layer biases, each padded with the padding value up to 128 entries, stacked. -/
def biasStack (b2_0 : S128.Idx → EReal) (b2_1 : S96.Idx → EReal) (b2_2 : S64.Idx → EReal) (b2_3 : S32.Idx → EReal) : S4x128.Idx → EReal :=
  concatenate S4x128 0
    [⟨S1x128, broadcastInDim S1x128 ![1] bcast_S128_S1x128_1 (pad S128 ![0] ![0] ![0] b2_0 (sitofp (F := Ideal) .f32 (constantI S_ 32 0#32)) pads_S128_S128_000 h_S_)⟩,
     ⟨S1x128, broadcastInDim S1x128 ![1] bcast_S128_S1x128_1 (pad S128 ![0] ![32] ![0] b2_1 (sitofp (F := Ideal) .f32 (constantI S_ 32 0#32)) pads_S96_S128_0320 h_S_)⟩,
     ⟨S1x128, broadcastInDim S1x128 ![1] bcast_S128_S1x128_1 (pad S128 ![0] ![64] ![0] b2_2 (sitofp (F := Ideal) .f32 (constantI S_ 32 0#32)) pads_S64_S128_0640 h_S_)⟩,
     ⟨S1x128, broadcastInDim S1x128 ![1] bcast_S128_S1x128_1 (pad S128 ![0] ![96] ![0] b2_3 (sitofp (F := Ideal) .f32 (constantI S_ 32 0#32)) pads_S32_S128_0960 h_S_)⟩]
    concatenates_S1x128_S1x128_S1x128_S1x128_S4x128_d0

/-- The four second-layer weight matrices, each padded with the padding value up to 128 columns, stacked, and rounded
    to bf16. -/
def weightStack (W2_0 : S1024x128.Idx → EReal) (W2_1 : S1024x96.Idx → EReal) (W2_2 : S1024x64.Idx → EReal) (W2_3 : S1024x32.Idx → EReal) : S4x1024x128.Idx → EReal :=
  truncf (F := Ideal) .bf16 (concatenate S4x1024x128 0
    [⟨S1x1024x128, broadcastInDim S1x1024x128 ![1, 2] bcast_S1024x128_S1x1024x128_1_2 (pad S1024x128 ![0, 0] ![0, 0] ![0, 0] W2_0 (sitofp (F := Ideal) .f32 (constantI S_ 32 0#32)) pads_S1024x128_S1024x128_000_000 h_S_)⟩,
     ⟨S1x1024x128, broadcastInDim S1x1024x128 ![1, 2] bcast_S1024x128_S1x1024x128_1_2 (pad S1024x128 ![0, 0] ![0, 32] ![0, 0] W2_1 (sitofp (F := Ideal) .f32 (constantI S_ 32 0#32)) pads_S1024x96_S1024x128_000_0320 h_S_)⟩,
     ⟨S1x1024x128, broadcastInDim S1x1024x128 ![1, 2] bcast_S1024x128_S1x1024x128_1_2 (pad S1024x128 ![0, 0] ![0, 64] ![0, 0] W2_2 (sitofp (F := Ideal) .f32 (constantI S_ 32 0#32)) pads_S1024x64_S1024x128_000_0640 h_S_)⟩,
     ⟨S1x1024x128, broadcastInDim S1x1024x128 ![1, 2] bcast_S1024x128_S1x1024x128_1_2 (pad S1024x128 ![0, 0] ![0, 96] ![0, 0] W2_3 (sitofp (F := Ideal) .f32 (constantI S_ 32 0#32)) pads_S1024x32_S1024x128_000_0960 h_S_)⟩]
    concatenates_S1x1024x128_S1x1024x128_S1x1024x128_S1x1024x128_S4x1024x128_d0) bitsLt_bf16_f32

set_option maxHeartbeats 4000000 in
/-- The region finds the first-layer weights rounded to bf16 — at the extended reals, the weights. -/
theorem V_v0 (c : Dev nD) : (V m c main_v0 : S4x512x1024.Idx → EReal) = ((m ((c : Thread nD τ).loc main_arg5)) : S4x512x1024.Idx → EReal) := by
  have e : V m c main_v0 = truncf (F := Ideal) .bf16 (m ((c : Thread nD τ).loc main_arg5)) bitsLt_bf16_f32 := by
    dsimp only [V]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
    after_results_simp
  rw [e]
  rfl

set_option maxHeartbeats 4000000 in
/-- The region finds the stacked padded biases. -/
theorem V_v19 (c : Dev nD) : V m c main_v19 = biasStack (m ((c : Thread nD τ).loc main_arg8)) (m ((c : Thread nD τ).loc main_arg10)) (m ((c : Thread nD τ).loc main_arg12)) (m ((c : Thread nD τ).loc main_arg14)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The region finds the stacked padded second-layer weights. -/
theorem V_v10 (c : Dev nD) : V m c main_v10 = weightStack (m ((c : Thread nD τ).loc main_arg7)) (m ((c : Thread nD τ).loc main_arg9)) (m ((c : Thread nD τ).loc main_arg11)) (m ((c : Thread nD τ).loc main_arg13)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- The bias stack at (t, c). -/
theorem biasStack_apply (b2_0 : S128.Idx → EReal) (b2_1 : S96.Idx → EReal) (b2_2 : S64.Idx → EReal) (b2_3 : S32.Idx → EReal) (t : Fin 4) (c : Fin 128) :
    biasStack b2_0 b2_1 b2_2 b2_3 (ix2 t c)
      = pick4 t (paddedBias 128 (fun c' => b2_0 (ix1 c')) c) (paddedBias 96 (fun c' => b2_1 (ix1 c')) c)
          (paddedBias 64 (fun c' => b2_2 (ix1 c')) c) (paddedBias 32 (fun c' => b2_3 (ix1 c')) c) := by
  unfold biasStack
  rw [Cert.StackPad.stack4_lead2_apply]
  match t with
  | ⟨0, _⟩ =>
    show (broadcastInDim S1x128 ![1] bcast_S128_S1x128_1 (pad S128 ![0] ![0] ![0] b2_0 (sitofp (F := Ideal) .f32 (constantI S_ 32 0#32)) pads_S128_S128_000 h_S_) : S1x128.Idx → EReal) (ix2 (0 : Fin 1) c)
        = paddedBias 128 (fun c' => b2_0 (ix1 c')) c
    rw [Cert.StackPad.lead2_apply, Cert.StackPad.padTail_apply (o := 128) (p := 0) (n := 128)]
    unfold paddedBias
    by_cases hc : c.val < 128
    · rw [dif_pos hc, dif_pos hc]
    · rw [dif_neg hc, dif_neg hc]; exact padValue_zero
  | ⟨1, _⟩ =>
    show (broadcastInDim S1x128 ![1] bcast_S128_S1x128_1 (pad S128 ![0] ![32] ![0] b2_1 (sitofp (F := Ideal) .f32 (constantI S_ 32 0#32)) pads_S96_S128_0320 h_S_) : S1x128.Idx → EReal) (ix2 (0 : Fin 1) c)
        = paddedBias 96 (fun c' => b2_1 (ix1 c')) c
    rw [Cert.StackPad.lead2_apply, Cert.StackPad.padTail_apply (o := 96) (p := 32) (n := 128)]
    unfold paddedBias
    by_cases hc : c.val < 96
    · rw [dif_pos hc, dif_pos hc]
    · rw [dif_neg hc, dif_neg hc]; exact padValue_zero
  | ⟨2, _⟩ =>
    show (broadcastInDim S1x128 ![1] bcast_S128_S1x128_1 (pad S128 ![0] ![64] ![0] b2_2 (sitofp (F := Ideal) .f32 (constantI S_ 32 0#32)) pads_S64_S128_0640 h_S_) : S1x128.Idx → EReal) (ix2 (0 : Fin 1) c)
        = paddedBias 64 (fun c' => b2_2 (ix1 c')) c
    rw [Cert.StackPad.lead2_apply, Cert.StackPad.padTail_apply (o := 64) (p := 64) (n := 128)]
    unfold paddedBias
    by_cases hc : c.val < 64
    · rw [dif_pos hc, dif_pos hc]
    · rw [dif_neg hc, dif_neg hc]; exact padValue_zero
  | ⟨3, _⟩ =>
    show (broadcastInDim S1x128 ![1] bcast_S128_S1x128_1 (pad S128 ![0] ![96] ![0] b2_3 (sitofp (F := Ideal) .f32 (constantI S_ 32 0#32)) pads_S32_S128_0960 h_S_) : S1x128.Idx → EReal) (ix2 (0 : Fin 1) c)
        = paddedBias 32 (fun c' => b2_3 (ix1 c')) c
    rw [Cert.StackPad.lead2_apply, Cert.StackPad.padTail_apply (o := 32) (p := 96) (n := 128)]
    unfold paddedBias
    by_cases hc : c.val < 32
    · rw [dif_pos hc, dif_pos hc]
    · rw [dif_neg hc, dif_neg hc]; exact padValue_zero

/-- The weight stack at (t, k, c). -/
theorem weightStack_apply (W2_0 : S1024x128.Idx → EReal) (W2_1 : S1024x96.Idx → EReal) (W2_2 : S1024x64.Idx → EReal) (W2_3 : S1024x32.Idx → EReal)
    (t : Fin 4) (k : Fin 1024) (c : Fin 128) :
    weightStack W2_0 W2_1 W2_2 W2_3 (ix3 t k c)
      = pick4 t (paddedCol 128 (fun k c' => W2_0 (ix2 k c')) c k) (paddedCol 96 (fun k c' => W2_1 (ix2 k c')) c k)
          (paddedCol 64 (fun k c' => W2_2 (ix2 k c')) c k) (paddedCol 32 (fun k c' => W2_3 (ix2 k c')) c k) := by
  unfold weightStack
  rw [truncf_apply, Cert.StackPad.stack4_lead3_apply]
  match t with
  | ⟨0, _⟩ =>
    show (broadcastInDim S1x1024x128 ![1, 2] bcast_S1024x128_S1x1024x128_1_2 (pad S1024x128 ![0, 0] ![0, 0] ![0, 0] W2_0 (sitofp (F := Ideal) .f32 (constantI S_ 32 0#32)) pads_S1024x128_S1024x128_000_000 h_S_) : S1x1024x128.Idx → EReal) (ix3 (0 : Fin 1) k c)
        = paddedCol 128 (fun k c' => W2_0 (ix2 k c')) c k
    rw [Cert.StackPad.lead3_apply, Cert.StackPad.padCols_apply (o := 128) (p := 0) (n := 128)]
    unfold paddedCol
    by_cases hc : c.val < 128
    · rw [dif_pos hc, dif_pos hc]
    · rw [dif_neg hc, dif_neg hc]; exact padValue_zero
  | ⟨1, _⟩ =>
    show (broadcastInDim S1x1024x128 ![1, 2] bcast_S1024x128_S1x1024x128_1_2 (pad S1024x128 ![0, 0] ![0, 32] ![0, 0] W2_1 (sitofp (F := Ideal) .f32 (constantI S_ 32 0#32)) pads_S1024x96_S1024x128_000_0320 h_S_) : S1x1024x128.Idx → EReal) (ix3 (0 : Fin 1) k c)
        = paddedCol 96 (fun k c' => W2_1 (ix2 k c')) c k
    rw [Cert.StackPad.lead3_apply, Cert.StackPad.padCols_apply (o := 96) (p := 32) (n := 128)]
    unfold paddedCol
    by_cases hc : c.val < 96
    · rw [dif_pos hc, dif_pos hc]
    · rw [dif_neg hc, dif_neg hc]; exact padValue_zero
  | ⟨2, _⟩ =>
    show (broadcastInDim S1x1024x128 ![1, 2] bcast_S1024x128_S1x1024x128_1_2 (pad S1024x128 ![0, 0] ![0, 64] ![0, 0] W2_2 (sitofp (F := Ideal) .f32 (constantI S_ 32 0#32)) pads_S1024x64_S1024x128_000_0640 h_S_) : S1x1024x128.Idx → EReal) (ix3 (0 : Fin 1) k c)
        = paddedCol 64 (fun k c' => W2_2 (ix2 k c')) c k
    rw [Cert.StackPad.lead3_apply, Cert.StackPad.padCols_apply (o := 64) (p := 64) (n := 128)]
    unfold paddedCol
    by_cases hc : c.val < 64
    · rw [dif_pos hc, dif_pos hc]
    · rw [dif_neg hc, dif_neg hc]; exact padValue_zero
  | ⟨3, _⟩ =>
    show (broadcastInDim S1x1024x128 ![1, 2] bcast_S1024x128_S1x1024x128_1_2 (pad S1024x128 ![0, 0] ![0, 96] ![0, 0] W2_3 (sitofp (F := Ideal) .f32 (constantI S_ 32 0#32)) pads_S1024x32_S1024x128_000_0960 h_S_) : S1x1024x128.Idx → EReal) (ix3 (0 : Fin 1) k c)
        = paddedCol 32 (fun k c' => W2_3 (ix2 k c')) c k
    rw [Cert.StackPad.lead3_apply, Cert.StackPad.padCols_apply (o := 32) (p := 96) (n := 128)]
    unfold paddedCol
    by_cases hc : c.val < 32
    · rw [dif_pos hc, dif_pos hc]
    · rw [dif_neg hc, dif_neg hc]; exact padValue_zero

end Cert.KernelIdeal.Hand

end
-- ==== Proof.IdealValue.lean ====
/-
  The kernel's result as one function of its arguments.

  The output array after the run is, entry (t, n, c), the two-half expression of row n of type t's features against
  the first-layer weights and bias and the STACKED, PADDED second-layer weights and biases the host side prepared.
  Those read, at (t, k, c) and (t, c), head t's own weights and bias inside its width and zero beyond; and against a
  padded column the two-half expression is the head's entry inside its width and zero beyond. So the array is the
  shared specification of the fourteen argument arrays the program reads.
-/
import proofs.«127226_j13099650253498_2_alg».proof.Proof.IdealBlocks
import proofs.«127226_j13099650253498_2_alg».proof.Proof.IdealEntryValues

set_option maxRecDepth 16384

noncomputable section

namespace Cert.KernelIdeal.Hand

open Cert.KernelIdeal Cert.KernelIdeal.Gen Cert.Heads
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- Against the stacked, padded weights and biases the array function is the specification (stated over plain arrays, so
    that what the region finds is substituted only at the end). -/
theorem arrayFn_spec (X0 X1 X2 X3 : S16384x512.Idx → EReal) (W1 : S4x512x1024.Idx → EReal) (B1 : S4x1024.Idx → EReal)
    (W2_0 : S1024x128.Idx → EReal) (b2_0 : S128.Idx → EReal) (W2_1 : S1024x96.Idx → EReal) (b2_1 : S96.Idx → EReal)
    (W2_2 : S1024x64.Idx → EReal) (b2_2 : S64.Idx → EReal) (W2_3 : S1024x32.Idx → EReal) (b2_3 : S32.Idx → EReal) :
    arrayFn X0 X1 X2 X3 W1 B1 (weightStack W2_0 W2_1 W2_2 W2_3) (biasStack b2_0 b2_1 b2_2 b2_3)
      = result X0 X1 X2 X3 W1 B1 W2_0 b2_0 W2_1 b2_1 W2_2 b2_2 W2_3 b2_3 := by
  funext j
  obtain ⟨t, n, cc, rfl⟩ : ∃ (t : Fin 4) (n : Fin 16384) (cc : Fin 128), j = ix3 t n cc := ⟨j 0, j 1, j 2, eq_ix3 j⟩
  show arrayEntry X0 X1 X2 X3 W1 B1 (weightStack W2_0 W2_1 W2_2 W2_3) (biasStack b2_0 b2_1 b2_2 b2_3) t n cc
      = resultAt X0 X1 X2 X3 W1 B1 W2_0 b2_0 W2_1 b2_1 W2_2 b2_2 W2_3 b2_3 t n cc
  unfold arrayEntry
  simp only [weightStack_apply, biasStack_apply]
  match t with
  | ⟨0, _⟩ =>
    simp only [pick4, resultAt]
    exact inHalves_padded (fun i => X0 (ix2 n i)) (fun i k => W1 (ix3 (0 : Fin 4) i k)) (fun k => B1 (ix2 (0 : Fin 4) k)) 128
      (fun k c' => W2_0 (ix2 k c')) (fun c' => b2_0 (ix1 c')) cc
  | ⟨1, _⟩ =>
    simp only [pick4, resultAt]
    exact inHalves_padded (fun i => X1 (ix2 n i)) (fun i k => W1 (ix3 (1 : Fin 4) i k)) (fun k => B1 (ix2 (1 : Fin 4) k)) 96
      (fun k c' => W2_1 (ix2 k c')) (fun c' => b2_1 (ix1 c')) cc
  | ⟨2, _⟩ =>
    simp only [pick4, resultAt]
    exact inHalves_padded (fun i => X2 (ix2 n i)) (fun i k => W1 (ix3 (2 : Fin 4) i k)) (fun k => B1 (ix2 (2 : Fin 4) k)) 64
      (fun k c' => W2_2 (ix2 k c')) (fun c' => b2_2 (ix1 c')) cc
  | ⟨3, _⟩ =>
    simp only [pick4, resultAt]
    exact inHalves_padded (fun i => X3 (ix2 n i)) (fun i k => W1 (ix3 (3 : Fin 4) i k)) (fun k => B1 (ix2 (3 : Fin 4) k)) 32
      (fun k c' => W2_3 (ix2 k c')) (fun c' => b2_3 (ix1 c')) cc

/-- The array function of what the region finds is the specification of the arguments. -/
theorem arrayFn_eq (c : Dev nD) :
    arrayFn (V m c main_arg0) (V m c main_arg1) (V m c main_arg2) (V m c main_arg3) (V m c main_v0) (V m c main_arg6) (V m c main_v10) (V m c main_v19)
      = result (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have key : ∀ (Y0 Y1 Y2 Y3 : S16384x512.Idx → EReal) (YW1 : S4x512x1024.Idx → EReal) (YB1 : S4x1024.Idx → EReal)
      (YW2 : S4x1024x128.Idx → EReal) (YB2 : S4x128.Idx → EReal),
      Y0 = (m ((c : Thread nD τ).loc main_arg0)) → Y1 = (m ((c : Thread nD τ).loc main_arg1)) → Y2 = (m ((c : Thread nD τ).loc main_arg2)) → Y3 = (m ((c : Thread nD τ).loc main_arg3)) → YW1 = (m ((c : Thread nD τ).loc main_arg5)) → YB1 = (m ((c : Thread nD τ).loc main_arg6))
      → YW2 = weightStack (m ((c : Thread nD τ).loc main_arg7)) (m ((c : Thread nD τ).loc main_arg9)) (m ((c : Thread nD τ).loc main_arg11)) (m ((c : Thread nD τ).loc main_arg13)) → YB2 = biasStack (m ((c : Thread nD τ).loc main_arg8)) (m ((c : Thread nD τ).loc main_arg10)) (m ((c : Thread nD τ).loc main_arg12)) (m ((c : Thread nD τ).loc main_arg14))
      → arrayFn Y0 Y1 Y2 Y3 YW1 YB1 YW2 YB2 = result (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
    intro Y0 Y1 Y2 Y3 YW1 YB1 YW2 YB2 h0 h1 h2 h3 h5 h6 hw hb
    subst h0 h1 h2 h3 h5 h6 hw hb
    exact arrayFn_spec _ _ _ _ _ _ _ _ _ _ _ _ _ _
  exact key _ _ _ _ _ _ _ _ (V_main_arg0 m c) (V_main_arg1 m c) (V_main_arg2 m c) (V_main_arg3 m c) (V_v0 m c) (V_main_arg6 m c) (V_v10 m c) (V_v19 m c)

/-- Every weakly fair execution of the idealized kernel terminates with its result array at the specification of its
    arguments, and the arguments unchanged. -/
theorem run_value : θ_run defs (onTc (τ := τ) (main (F := Ideal))) ⟨m, fun _ => 0, ρ⟩ (fun r => ∀ c : Dev nD,
      r.2.mem ((c.tc : Thread nD τ).loc main_v20) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨
      ((h c).1 8).trans ((out_final m c).trans (arrayFn_eq m c)),
      ((h c).1 0).trans ((((dats m 0 c).arrAt_in 0 rfl _).trans ((A_eq m c 0).trans (V_main_arg0 m c)))),
      ((h c).1 1).trans ((((dats m 0 c).arrAt_in 1 rfl _).trans ((A_eq m c 1).trans (V_main_arg1 m c)))),
      ((h c).1 2).trans ((((dats m 0 c).arrAt_in 2 rfl _).trans ((A_eq m c 2).trans (V_main_arg2 m c)))),
      ((h c).1 3).trans ((((dats m 0 c).arrAt_in 3 rfl _).trans ((A_eq m c 3).trans (V_main_arg3 m c)))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans ((((dats m 0 c).arrAt_in 5 rfl _).trans ((A_eq m c 5).trans (V_main_arg6 m c)))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

end Cert.KernelIdeal.Hand

end
-- ==== Proof.RefHead.lean ====
/-
  The reference's result read at an index.

  The reference stacks the four feature arrays, takes the batched first-layer product, adds the bias, clamps below at
  zero; then, head by head, cuts the head's 16384 × 1024 hidden slab out of the stack, multiplies by the head's own
  second-layer weights, adds its bias, pads the columns with the padding value up to 128, and stacks the four padded
  results. Read at (t, n, c) that is: inside head t's own width, Σ_k hidden(t, n, k) · W2_t(k, c) + b2_t(c), with
  hidden(t, n, k) = max(Σ_i x_t(n, i) · W1(t, i, k) + b1(t, k), 0); beyond it, the padding value, which is zero.
-/
import proofs.«127226_j13099650253498_2_alg».proof.Proof.Gen.ReferenceIdeal.Read
import proofs.«127226_j13099650253498_2_alg».proof.Proof.LibStackPad
import proofs.«127226_j13099650253498_2_alg».proof.Proof.Heads
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Heads
open Idealize.ShloMosaic Idealize.ShloMosaic.TcCoe Idealize.ShloMosaic.ValueIdx Idealize.SL.Sem

/-! ## The hidden layer -/

/-- The stacked features at (t, n, i) are type t's features at (n, i). -/
theorem stacked_apply (x0 x1 x2 x3 : (⟨S16384x512, .f32⟩ : BufTy).Contents (Elt Ideal)) (t : Fin 4) (n : Fin 16384) (i : Fin 512) :
    val_main_v4 (F := Ideal) x0 x1 x2 x3 (ix3 t n i) = pick4 t x0 x1 x2 x3 (ix2 n i) := by
  unfold val_main_v4
  rw [Cert.StackPad.stack4_lead3_apply]
  match t with
  | ⟨0, _⟩ =>
    exact (val_main_v0_apply x0 _).trans (congrArg x0 (funext fun a => Fin.ext (by
      match a with
      | ⟨0, _⟩ => rfl
      | ⟨1, _⟩ => rfl)))
  | ⟨1, _⟩ =>
    exact (val_main_v1_apply x1 _).trans (congrArg x1 (funext fun a => Fin.ext (by
      match a with
      | ⟨0, _⟩ => rfl
      | ⟨1, _⟩ => rfl)))
  | ⟨2, _⟩ =>
    exact (val_main_v2_apply x2 _).trans (congrArg x2 (funext fun a => Fin.ext (by
      match a with
      | ⟨0, _⟩ => rfl
      | ⟨1, _⟩ => rfl)))
  | ⟨3, _⟩ =>
    exact (val_main_v3_apply x3 _).trans (congrArg x3 (funext fun a => Fin.ext (by
      match a with
      | ⟨0, _⟩ => rfl
      | ⟨1, _⟩ => rfl)))

/-- The first-layer bias spread over the rows, at (t, n, k), is b1 at (t, k). -/
theorem bias1_apply (x6 : (⟨S4x1024, .f32⟩ : BufTy).Contents (Elt Ideal)) (t : Fin 4) (n : Fin 16384) (k : Fin 1024) :
    val_main_v7 (F := Ideal) x6 (ix3 t n k) = x6 (ix2 t k) := by
  rw [val_main_v7_apply, val_main_v6_apply]
  refine congrArg x6 (funext fun a => Fin.ext ?_)
  match a with
  | ⟨0, _⟩ => rfl
  | ⟨1, _⟩ => rfl

/-- The hidden layer at (t, n, k). -/
theorem hidden_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (t : Fin 4) (n : Fin 16384) (k : Fin 1024) :
    val_main_v9 (F := Ideal) x0 x1 x2 x3 x5 x6 (ix3 t n k)
      = hid (fun i => pick4 t x0 x1 x2 x3 (ix2 n i)) (fun i k => x5 (ix3 t i k)) (fun k => x6 (ix2 t k)) k := by
  rw [val_main_v9_apply, val_main_v8_apply, val_main_v5_apply, bias1_apply, val_main_call0_v0_apply, val_main_call0_cst_apply]
  unfold hid
  have hl : ∀ i : Fin 512, lidx_main_v5 (ix3 t n k) i = ix3 t n i := fun i => funext fun a => Fin.ext (by
    match a with
    | ⟨0, _⟩ => rfl
    | ⟨1, _⟩ => rfl
    | ⟨2, _⟩ => rfl)
  have hr : ∀ i : Fin 512, ridx_main_v5 (ix3 t n k) i = ix3 t i k := fun i => funext fun a => Fin.ext (by
    match a with
    | ⟨0, _⟩ => rfl
    | ⟨1, _⟩ => rfl
    | ⟨2, _⟩ => rfl)
  simp only [hl, hr, stacked_apply]
  show max ((∑ i : Fin 512, pick4 t x0 x1 x2 x3 (ix2 n i) * x5 (ix3 t i k)) + x6 (ix2 t k)) (Ideal.ofBits .f32 0x00000000#32) = _
  rw [Ideal.ofBits_zero_f32]

/-! ## Head 0 (width 128) -/

/-- Row n of head 0's hidden slab, cut out of the stack and with its unit axis dropped, at (n, k). -/
theorem hiddenRows0_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (n : Fin 16384) (k : Fin 1024) :
    val_main_v11 (F := Ideal) x0 x1 x2 x3 x5 x6 (ix2 n k)
      = hid (fun i => pick4 (0 : Fin 4) x0 x1 x2 x3 (ix2 n i)) (fun i k => x5 (ix3 (0 : Fin 4) i k)) (fun k => x6 (ix2 (0 : Fin 4) k)) k := by
  rw [val_main_v11_apply, val_main_v10_apply]
  have hi : idx_main_v10 (idx_main_v11 (ix2 n k)) = ix3 (0 : Fin 4) n k := funext fun a => Fin.ext (by
    have hn : n.val < 16384 := n.isLt
    have hk : k.val < 1024 := k.isLt
    match a with
    | ⟨0, _⟩ => rfl
    | ⟨1, _⟩ => show (n.val * 1024 + k.val) / 1024 % 16384 = n.val; omega
    | ⟨2, _⟩ => show (n.val * 1024 + k.val) % 1024 = k.val; omega)
  rw [hi, hidden_apply]

/-- Head 0 before padding, at (n, c). -/
theorem head0_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x7 : (⟨S1024x128, .f32⟩ : BufTy).Contents (Elt Ideal)) (x8 : (⟨S128, .f32⟩ : BufTy).Contents (Elt Ideal))
    (n : Fin 16384) (c : Fin 128) :
    val_main_v15 (F := Ideal) x0 x1 x2 x3 x5 x6 x7 x8 (ix2 n c)
      = inOne (fun i => pick4 (0 : Fin 4) x0 x1 x2 x3 (ix2 n i)) (fun i k => x5 (ix3 (0 : Fin 4) i k)) (fun k => x6 (ix2 (0 : Fin 4) k))
          (fun k => x7 (ix2 k c)) (x8 (ix1 c)) := by
  rw [val_main_v15_apply, val_main_v12_apply, val_main_v14_apply, val_main_v13_apply]
  unfold inOne
  have hl : ∀ k : Fin 1024, lidx_main_v12 (ix2 n c) k = ix2 n k := fun k => funext fun a => Fin.ext (by
    match a with
    | ⟨0, _⟩ => rfl
    | ⟨1, _⟩ => rfl)
  have hr : ∀ k : Fin 1024, ridx_main_v12 (ix2 n c) k = ix2 k c := fun k => funext fun a => Fin.ext (by
    match a with
    | ⟨0, _⟩ => rfl
    | ⟨1, _⟩ => rfl)
  have hb : idx_main_v13 (idx_main_v14 (ix2 n c)) = ix1 c := funext fun a => Fin.ext (by
    match a with
    | ⟨0, _⟩ => rfl)
  simp only [hl, hr, hb, hiddenRows0_apply]
  rfl

/-- Head 0 padded to 128 columns and given its leading unit axis, at (0, n, c). -/
theorem padded0_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x7 : (⟨S1024x128, .f32⟩ : BufTy).Contents (Elt Ideal)) (x8 : (⟨S128, .f32⟩ : BufTy).Contents (Elt Ideal))
    (n : Fin 16384) (c : Fin 128) :
    val_main_v38 (F := Ideal) x0 x1 x2 x3 x5 x6 x7 x8 (ix3 (0 : Fin 1) n c)
      = entry (fun i => pick4 (0 : Fin 4) x0 x1 x2 x3 (ix2 n i)) (fun i k => x5 (ix3 (0 : Fin 4) i k)) (fun k => x6 (ix2 (0 : Fin 4) k)) 128
          (fun k c' => x7 (ix2 k c')) (fun c' => x8 (ix1 c')) c := by
  rw [val_main_v38_apply]
  have hi : idx_main_v38 (ix3 (0 : Fin 1) n c) = ix2 n c := funext fun a => Fin.ext (by
    match a with
    | ⟨0, _⟩ => rfl
    | ⟨1, _⟩ => rfl)
  rw [hi]
  unfold val_main_v16 entry
  rw [Cert.StackPad.padCols_apply (o := 128) (p := 0) (n := 128)]
  by_cases hc : c.val < 128
  · rw [dif_pos hc, dif_pos hc]
    exact head0_apply x0 x1 x2 x3 x5 x6 x7 x8 n ⟨c.val, hc⟩
  · rw [dif_neg hc, dif_neg hc]
    exact intZero_toFloat

/-! ## Head 1 (width 96) -/

/-- Row n of head 1's hidden slab, cut out of the stack and with its unit axis dropped, at (n, k). -/
theorem hiddenRows1_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (n : Fin 16384) (k : Fin 1024) :
    val_main_v18 (F := Ideal) x0 x1 x2 x3 x5 x6 (ix2 n k)
      = hid (fun i => pick4 (1 : Fin 4) x0 x1 x2 x3 (ix2 n i)) (fun i k => x5 (ix3 (1 : Fin 4) i k)) (fun k => x6 (ix2 (1 : Fin 4) k)) k := by
  rw [val_main_v18_apply, val_main_v17_apply]
  have hi : idx_main_v17 (idx_main_v18 (ix2 n k)) = ix3 (1 : Fin 4) n k := funext fun a => Fin.ext (by
    have hn : n.val < 16384 := n.isLt
    have hk : k.val < 1024 := k.isLt
    match a with
    | ⟨0, _⟩ => rfl
    | ⟨1, _⟩ => show (n.val * 1024 + k.val) / 1024 % 16384 = n.val; omega
    | ⟨2, _⟩ => show (n.val * 1024 + k.val) % 1024 = k.val; omega)
  rw [hi, hidden_apply]

/-- Head 1 before padding, at (n, c). -/
theorem head1_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x9 : (⟨S1024x96, .f32⟩ : BufTy).Contents (Elt Ideal)) (x10 : (⟨S96, .f32⟩ : BufTy).Contents (Elt Ideal))
    (n : Fin 16384) (c : Fin 96) :
    val_main_v22 (F := Ideal) x0 x1 x2 x3 x5 x6 x9 x10 (ix2 n c)
      = inOne (fun i => pick4 (1 : Fin 4) x0 x1 x2 x3 (ix2 n i)) (fun i k => x5 (ix3 (1 : Fin 4) i k)) (fun k => x6 (ix2 (1 : Fin 4) k))
          (fun k => x9 (ix2 k c)) (x10 (ix1 c)) := by
  rw [val_main_v22_apply, val_main_v19_apply, val_main_v21_apply, val_main_v20_apply]
  unfold inOne
  have hl : ∀ k : Fin 1024, lidx_main_v19 (ix2 n c) k = ix2 n k := fun k => funext fun a => Fin.ext (by
    match a with
    | ⟨0, _⟩ => rfl
    | ⟨1, _⟩ => rfl)
  have hr : ∀ k : Fin 1024, ridx_main_v19 (ix2 n c) k = ix2 k c := fun k => funext fun a => Fin.ext (by
    match a with
    | ⟨0, _⟩ => rfl
    | ⟨1, _⟩ => rfl)
  have hb : idx_main_v20 (idx_main_v21 (ix2 n c)) = ix1 c := funext fun a => Fin.ext (by
    match a with
    | ⟨0, _⟩ => rfl)
  simp only [hl, hr, hb, hiddenRows1_apply]
  rfl

/-- Head 1 padded to 128 columns and given its leading unit axis, at (0, n, c). -/
theorem padded1_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x9 : (⟨S1024x96, .f32⟩ : BufTy).Contents (Elt Ideal)) (x10 : (⟨S96, .f32⟩ : BufTy).Contents (Elt Ideal))
    (n : Fin 16384) (c : Fin 128) :
    val_main_v39 (F := Ideal) x0 x1 x2 x3 x5 x6 x9 x10 (ix3 (0 : Fin 1) n c)
      = entry (fun i => pick4 (1 : Fin 4) x0 x1 x2 x3 (ix2 n i)) (fun i k => x5 (ix3 (1 : Fin 4) i k)) (fun k => x6 (ix2 (1 : Fin 4) k)) 96
          (fun k c' => x9 (ix2 k c')) (fun c' => x10 (ix1 c')) c := by
  rw [val_main_v39_apply]
  have hi : idx_main_v39 (ix3 (0 : Fin 1) n c) = ix2 n c := funext fun a => Fin.ext (by
    match a with
    | ⟨0, _⟩ => rfl
    | ⟨1, _⟩ => rfl)
  rw [hi]
  unfold val_main_v23 entry
  rw [Cert.StackPad.padCols_apply (o := 96) (p := 32) (n := 128)]
  by_cases hc : c.val < 96
  · rw [dif_pos hc, dif_pos hc]
    exact head1_apply x0 x1 x2 x3 x5 x6 x9 x10 n ⟨c.val, hc⟩
  · rw [dif_neg hc, dif_neg hc]
    exact intZero_toFloat

/-! ## Head 2 (width 64) -/

/-- Row n of head 2's hidden slab, cut out of the stack and with its unit axis dropped, at (n, k). -/
theorem hiddenRows2_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (n : Fin 16384) (k : Fin 1024) :
    val_main_v25 (F := Ideal) x0 x1 x2 x3 x5 x6 (ix2 n k)
      = hid (fun i => pick4 (2 : Fin 4) x0 x1 x2 x3 (ix2 n i)) (fun i k => x5 (ix3 (2 : Fin 4) i k)) (fun k => x6 (ix2 (2 : Fin 4) k)) k := by
  rw [val_main_v25_apply, val_main_v24_apply]
  have hi : idx_main_v24 (idx_main_v25 (ix2 n k)) = ix3 (2 : Fin 4) n k := funext fun a => Fin.ext (by
    have hn : n.val < 16384 := n.isLt
    have hk : k.val < 1024 := k.isLt
    match a with
    | ⟨0, _⟩ => rfl
    | ⟨1, _⟩ => show (n.val * 1024 + k.val) / 1024 % 16384 = n.val; omega
    | ⟨2, _⟩ => show (n.val * 1024 + k.val) % 1024 = k.val; omega)
  rw [hi, hidden_apply]

/-- Head 2 before padding, at (n, c). -/
theorem head2_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x11 : (⟨S1024x64, .f32⟩ : BufTy).Contents (Elt Ideal)) (x12 : (⟨S64, .f32⟩ : BufTy).Contents (Elt Ideal))
    (n : Fin 16384) (c : Fin 64) :
    val_main_v29 (F := Ideal) x0 x1 x2 x3 x5 x6 x11 x12 (ix2 n c)
      = inOne (fun i => pick4 (2 : Fin 4) x0 x1 x2 x3 (ix2 n i)) (fun i k => x5 (ix3 (2 : Fin 4) i k)) (fun k => x6 (ix2 (2 : Fin 4) k))
          (fun k => x11 (ix2 k c)) (x12 (ix1 c)) := by
  rw [val_main_v29_apply, val_main_v26_apply, val_main_v28_apply, val_main_v27_apply]
  unfold inOne
  have hl : ∀ k : Fin 1024, lidx_main_v26 (ix2 n c) k = ix2 n k := fun k => funext fun a => Fin.ext (by
    match a with
    | ⟨0, _⟩ => rfl
    | ⟨1, _⟩ => rfl)
  have hr : ∀ k : Fin 1024, ridx_main_v26 (ix2 n c) k = ix2 k c := fun k => funext fun a => Fin.ext (by
    match a with
    | ⟨0, _⟩ => rfl
    | ⟨1, _⟩ => rfl)
  have hb : idx_main_v27 (idx_main_v28 (ix2 n c)) = ix1 c := funext fun a => Fin.ext (by
    match a with
    | ⟨0, _⟩ => rfl)
  simp only [hl, hr, hb, hiddenRows2_apply]
  rfl

/-- Head 2 padded to 128 columns and given its leading unit axis, at (0, n, c). -/
theorem padded2_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x11 : (⟨S1024x64, .f32⟩ : BufTy).Contents (Elt Ideal)) (x12 : (⟨S64, .f32⟩ : BufTy).Contents (Elt Ideal))
    (n : Fin 16384) (c : Fin 128) :
    val_main_v40 (F := Ideal) x0 x1 x2 x3 x5 x6 x11 x12 (ix3 (0 : Fin 1) n c)
      = entry (fun i => pick4 (2 : Fin 4) x0 x1 x2 x3 (ix2 n i)) (fun i k => x5 (ix3 (2 : Fin 4) i k)) (fun k => x6 (ix2 (2 : Fin 4) k)) 64
          (fun k c' => x11 (ix2 k c')) (fun c' => x12 (ix1 c')) c := by
  rw [val_main_v40_apply]
  have hi : idx_main_v40 (ix3 (0 : Fin 1) n c) = ix2 n c := funext fun a => Fin.ext (by
    match a with
    | ⟨0, _⟩ => rfl
    | ⟨1, _⟩ => rfl)
  rw [hi]
  unfold val_main_v30 entry
  rw [Cert.StackPad.padCols_apply (o := 64) (p := 64) (n := 128)]
  by_cases hc : c.val < 64
  · rw [dif_pos hc, dif_pos hc]
    exact head2_apply x0 x1 x2 x3 x5 x6 x11 x12 n ⟨c.val, hc⟩
  · rw [dif_neg hc, dif_neg hc]
    exact intZero_toFloat

/-! ## Head 3 (width 32) -/

/-- Row n of head 3's hidden slab, cut out of the stack and with its unit axis dropped, at (n, k). -/
theorem hiddenRows3_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (n : Fin 16384) (k : Fin 1024) :
    val_main_v32 (F := Ideal) x0 x1 x2 x3 x5 x6 (ix2 n k)
      = hid (fun i => pick4 (3 : Fin 4) x0 x1 x2 x3 (ix2 n i)) (fun i k => x5 (ix3 (3 : Fin 4) i k)) (fun k => x6 (ix2 (3 : Fin 4) k)) k := by
  rw [val_main_v32_apply, val_main_v31_apply]
  have hi : idx_main_v31 (idx_main_v32 (ix2 n k)) = ix3 (3 : Fin 4) n k := funext fun a => Fin.ext (by
    have hn : n.val < 16384 := n.isLt
    have hk : k.val < 1024 := k.isLt
    match a with
    | ⟨0, _⟩ => rfl
    | ⟨1, _⟩ => show (n.val * 1024 + k.val) / 1024 % 16384 = n.val; omega
    | ⟨2, _⟩ => show (n.val * 1024 + k.val) % 1024 = k.val; omega)
  rw [hi, hidden_apply]

/-- Head 3 before padding, at (n, c). -/
theorem head3_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x13 : (⟨S1024x32, .f32⟩ : BufTy).Contents (Elt Ideal)) (x14 : (⟨S32, .f32⟩ : BufTy).Contents (Elt Ideal))
    (n : Fin 16384) (c : Fin 32) :
    val_main_v36 (F := Ideal) x0 x1 x2 x3 x5 x6 x13 x14 (ix2 n c)
      = inOne (fun i => pick4 (3 : Fin 4) x0 x1 x2 x3 (ix2 n i)) (fun i k => x5 (ix3 (3 : Fin 4) i k)) (fun k => x6 (ix2 (3 : Fin 4) k))
          (fun k => x13 (ix2 k c)) (x14 (ix1 c)) := by
  rw [val_main_v36_apply, val_main_v33_apply, val_main_v35_apply, val_main_v34_apply]
  unfold inOne
  have hl : ∀ k : Fin 1024, lidx_main_v33 (ix2 n c) k = ix2 n k := fun k => funext fun a => Fin.ext (by
    match a with
    | ⟨0, _⟩ => rfl
    | ⟨1, _⟩ => rfl)
  have hr : ∀ k : Fin 1024, ridx_main_v33 (ix2 n c) k = ix2 k c := fun k => funext fun a => Fin.ext (by
    match a with
    | ⟨0, _⟩ => rfl
    | ⟨1, _⟩ => rfl)
  have hb : idx_main_v34 (idx_main_v35 (ix2 n c)) = ix1 c := funext fun a => Fin.ext (by
    match a with
    | ⟨0, _⟩ => rfl)
  simp only [hl, hr, hb, hiddenRows3_apply]
  rfl

/-- Head 3 padded to 128 columns and given its leading unit axis, at (0, n, c). -/
theorem padded3_apply (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal)) (x13 : (⟨S1024x32, .f32⟩ : BufTy).Contents (Elt Ideal)) (x14 : (⟨S32, .f32⟩ : BufTy).Contents (Elt Ideal))
    (n : Fin 16384) (c : Fin 128) :
    val_main_v41 (F := Ideal) x0 x1 x2 x3 x5 x6 x13 x14 (ix3 (0 : Fin 1) n c)
      = entry (fun i => pick4 (3 : Fin 4) x0 x1 x2 x3 (ix2 n i)) (fun i k => x5 (ix3 (3 : Fin 4) i k)) (fun k => x6 (ix2 (3 : Fin 4) k)) 32
          (fun k c' => x13 (ix2 k c')) (fun c' => x14 (ix1 c')) c := by
  rw [val_main_v41_apply]
  have hi : idx_main_v41 (ix3 (0 : Fin 1) n c) = ix2 n c := funext fun a => Fin.ext (by
    match a with
    | ⟨0, _⟩ => rfl
    | ⟨1, _⟩ => rfl)
  rw [hi]
  unfold val_main_v37 entry
  rw [Cert.StackPad.padCols_apply (o := 32) (p := 96) (n := 128)]
  by_cases hc : c.val < 32
  · rw [dif_pos hc, dif_pos hc]
    exact head3_apply x0 x1 x2 x3 x5 x6 x13 x14 n ⟨c.val, hc⟩
  · rw [dif_neg hc, dif_neg hc]
    exact intZero_toFloat

/-! ## The stacked result -/

/-- The reference's result is the shared specification of the fourteen arrays it reads. -/
theorem result_eq (x0 x1 x2 x3 : (⟨S16384x512, .f32⟩ : BufTy).Contents (Elt Ideal)) (x5 : (⟨S4x512x1024, .f32⟩ : BufTy).Contents (Elt Ideal)) (x6 : (⟨S4x1024, .f32⟩ : BufTy).Contents (Elt Ideal))
    (x7 : (⟨S1024x128, .f32⟩ : BufTy).Contents (Elt Ideal)) (x8 : (⟨S128, .f32⟩ : BufTy).Contents (Elt Ideal))
    (x9 : (⟨S1024x96, .f32⟩ : BufTy).Contents (Elt Ideal)) (x10 : (⟨S96, .f32⟩ : BufTy).Contents (Elt Ideal))
    (x11 : (⟨S1024x64, .f32⟩ : BufTy).Contents (Elt Ideal)) (x12 : (⟨S64, .f32⟩ : BufTy).Contents (Elt Ideal))
    (x13 : (⟨S1024x32, .f32⟩ : BufTy).Contents (Elt Ideal)) (x14 : (⟨S32, .f32⟩ : BufTy).Contents (Elt Ideal)) :
    val_main_v42 (F := Ideal) x0 x1 x2 x3 x5 x6 x7 x8 x9 x10 x11 x12 x13 x14
      = result x0 x1 x2 x3 x5 x6 x7 x8 x9 x10 x11 x12 x13 x14 := by
  funext j
  obtain ⟨t, n, c, rfl⟩ : ∃ (t : Fin 4) (n : Fin 16384) (c : Fin 128), j = ix3 t n c := ⟨j 0, j 1, j 2, eq_ix3 j⟩
  unfold val_main_v42
  rw [Cert.StackPad.stack4_lead3_apply]
  show _ = resultAt x0 x1 x2 x3 x5 x6 x7 x8 x9 x10 x11 x12 x13 x14 t n c
  match t with
  | ⟨0, _⟩ => exact padded0_apply x0 x1 x2 x3 x5 x6 x7 x8 n c
  | ⟨1, _⟩ => exact padded1_apply x0 x1 x2 x3 x5 x6 x9 x10 n c
  | ⟨2, _⟩ => exact padded2_apply x0 x1 x2 x3 x5 x6 x11 x12 n c
  | ⟨3, _⟩ => exact padded3_apply x0 x1 x2 x3 x5 x6 x13 x14 n c

end Cert.ReferenceIdeal.RefValue

end
-- ==== Proof.lean ====
/-
  The certificate of the four-headed two-layer network: per node type t, relu(x_t · W1_t + b1_t) · W2_t + b2_t,
  its 128-column result padded with zeros beyond the head's own width.

  The kernel computes each head block by block (sixteen blocks of 1024 rows), the hidden axis in two halves of
  512 whose products are added from zero, against second-layer weights and biases that were zero-padded to 128
  columns and stacked BEFORE the product; the reference computes each head with one product over the whole hidden
  axis and pads the RESULT. At the extended reals the two agree entry by entry: a sum over 1024 indices is the sum of
  its two halves, a product with a padded zero is zero, and zero added to a sum is the sum.

  The frames of the two kernel programs are proved from the body's run at one grid point and the pipeline's frame
  theorem; the reference's frame is its run with the result dropped; the idealization rewrote nothing.
-/
import proofs.«127226_j13099650253498_2_alg».proof.Defs
import proofs.«127226_j13099650253498_2_alg».proof.Proof.BitsFrame
import proofs.«127226_j13099650253498_2_alg».proof.Proof.IdealValue
import proofs.«127226_j13099650253498_2_alg».proof.Proof.RefHead
import proofs.«127226_j13099650253498_2_alg».proof.Proof.Gen.ReferenceIdeal.Run
import proofs.«127226_j13099650253498_2_alg».proof.Proof.Gen.Pre_finite_inputs
import Idealize.ShloMosaic.Adequacy
import Idealize.ShloMosaic.Init

noncomputable section

namespace Cert.Proof

open Idealize.ShloMosaic Idealize.SL.Sem

/-- The word-level kernel runs to its end, faults nowhere and leaves its arguments unchanged. -/
theorem frame_bits : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ideal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs run to their ends with the same result: each ends
    at the one specification — entry (t, n, c) is head t on row n of type t's features, padded with zeros to 128
    columns — of its own arguments (the kernel's through its blocks and the padded, stacked weights; the reference's
    through its stages), and the arguments agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Heads.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, -, h5, h6, h7, h8, h9, h10, h11, h12, h13, h14⟩ := hagree c
  rw [Cert.ReferenceIdeal.Read.val_main_v42_eq, Cert.ReferenceIdeal.RefValue.result_eq, h0, h1, h2, h3, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_bits, frame_ideal, frame_ref, trivial, algebraic⟩

end Cert.Proof

end
